-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S64x512x1024 : S_.BroadcastsInDim S64x512x1024 (![] : Fin 0 → Fin S64x512x1024.rank)
  reducesTo_S64x512x1024_S_d0_1_2 : S64x512x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S16384x512 .f32) (main_arg1 : FVec F S16384x2 .f32) (main_arg2 : IVec S16384x2 32) (main_arg3 : FVec F S64x512x1024 .f32) (main_arg4 : FVec F S64x1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S64x512x1024 .f32 := Host.absf main_arg3
  let main_cst_2 : FVec F S_ .f32 := constant S_ .f32 0x7F800000#32
  let main_v10 : FVec F S64x512x1024 .f32 := broadcastInDim S64x512x1024 ![] bcast_S_S64x512x1024 main_cst_2
  let main_v11 : IVec S64x512x1024 1 := cmpf .olt main_v9 main_v10
  let main_c_3 : IVec S_ 1 := constantI S_ 1 1#1
  let main_v12 : IVec S_ 1 := (fun x v => Host.reduce IntOp.andi x v reducesTo_S64x512x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S64x512x512 : Shape := ⟨3, ![64, 512, 512]⟩
abbrev S1x512x512 : Shape := ⟨3, ![1, 512, 512]⟩
abbrev S1x512x1024 : Shape := ⟨3, ![1, 512, 1024]⟩
abbrev S1x1024x512 : Shape := ⟨3, ![1, 1024, 512]⟩
abbrev S512x512 : Shape := ⟨2, ![512, 512]⟩
abbrev S512x1024 : Shape := ⟨2, ![512, 1024]⟩
abbrev S1024x512 : Shape := ⟨2, ![1024, 512]⟩
abbrev S16384x2x512 : Shape := ⟨3, ![16384, 2, 512]⟩

abbrev nBuf : Space → Nat
  | .hbm => 70
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S16384x2, .i32⟩
  | .hbm, ⟨3, _⟩ => ⟨S64x512x1024, .f32⟩
  | .hbm, ⟨4, _⟩ => ⟨S64x1024x512, .f32⟩
  | .hbm, ⟨5, _⟩ => ⟨S32768, .i32⟩
  | .hbm, ⟨6, _⟩ => ⟨S32768, .f32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S32768, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S32768, .i32⟩
  | .hbm, ⟨41, _⟩ => ⟨S16384x512, .bf16⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768x512, .bf16⟩
  | .hbm, ⟨51, _⟩ => ⟨S64x512x512, .bf16⟩
  | .hbm, ⟨52, _⟩ => ⟨S64x512x512, .bf16⟩
  | .hbm, ⟨53, _⟩ => ⟨S32768x512, .bf16⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768x512, .bf16⟩
  | .hbm, ⟨63, _⟩ => ⟨S32768x512, .f32⟩
  | .hbm, ⟨64, _⟩ => ⟨S32768x1, .f32⟩
  | .hbm, ⟨65, _⟩ => ⟨S32768x512, .f32⟩
  | .hbm, ⟨66, _⟩ => ⟨S32768x512, .f32⟩
  | .hbm, ⟨67, _⟩ => ⟨S16384x2x512, .f32⟩
  | .hbm, ⟨68, _⟩ => ⟨S_, .f32⟩
  | .hbm, ⟨69, _⟩ => ⟨S16384x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x512x512, .bf16⟩
  | .local _ .vmem, ⟨7, _⟩ => ⟨S1x512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_call1_v0 : Ref sig .tc := ⟨.hbm, 26, rfl⟩
abbrev main_call1_v1_0 : Ref sig .tc := ⟨.hbm, 27, rfl⟩
abbrev main_v4 : Ref sig .tc := ⟨.hbm, 28, rfl⟩
abbrev main_call2_v0 : Ref sig .tc := ⟨.hbm, 29, rfl⟩
abbrev main_call2_v1_0 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst : Ref sig .tc := ⟨.hbm, 68, rfl⟩
abbrev main_v36 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x2_S32768 : S16384x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bitsLt_bf16_f32 : FTy.bits .bf16 < FTy.bits .f32
  shapeCasts_S32768x512_S64x512x512 : S32768x512.ShapeCasts S64x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  shapeCasts_S64x512x512_S32768x512 : S64x512x512.ShapeCasts S32768x512
  bcast_S32768x1_S32768x512_0_1 : S32768x1.BroadcastsInDim S32768x512 (![0, 1] : Fin 2 → Fin S32768x512.rank)
  shapeCasts_S32768x512_S16384x2x512 : S32768x512.ShapeCasts S16384x2x512
  reducesTo_S16384x2x512_S16384x512_d1 : S16384x2x512.ReducesTo [1] S16384x512
  h_S_ : 0 < S_.numel
  gather_S32768_S32768x1_S32768_n_0_n_n_0_1_1_wf : GatherDims.WF S32768 S32768x1 S32768 [] [0] [] [0] [] 1 ![1]
  gather_S16384x512_S32768x1_S32768x512_1_0_n_n_0_1_1512_wf : GatherDims.WF S16384x512 S32768x1 S32768x512 [1] [0] [] [0] [] 1 ![1, 512]
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  gather_S32768x512_S32768x1_S32768x512_1_0_n_n_0_1_1512_wf : GatherDims.WF S32768x512 S32768x1 S32768x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .bf16 = 32 ∨ (Rect.block (s := S64x512x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .bf16 = 32 ∨ (Rect.block (s := S64x512x512) S1x512x512.size (cc0_transform_3 i) (hinb0_3 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def gather_S32768x512_S32768x1_S32768x512_1_0_n_n_0_1_1512 : GatherDims S32768x512 S32768x1 S32768x512 where
  offsetDims := [1]
  collapsedSliceDims := [0]
  operandBatchingDims := []
  startIndicesBatchingDims := []
  startIndexMap := [0]
  indexVectorDim := 1
  sliceSizes := ![1, 512]
  wf := gather_S32768x512_S32768x1_S32768x512_1_0_n_n_0_1_1512_wf

abbrev win0_0 : Pipeline.Window sig grid0 :=
  Pipeline.Window.ofSpec (Memref.whole main_v21) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S64x512x512 : Shape := ⟨3, ![64, 512, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S16384x2, .i32⟩
  | .hbm, ⟨3, _⟩ => ⟨S64x512x1024, .f32⟩
  | .hbm, ⟨4, _⟩ => ⟨S64x1024x512, .f32⟩
  | .hbm, ⟨5, _⟩ => ⟨S32768, .i32⟩
  | .hbm, ⟨6, _⟩ => ⟨S32768, .f32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S32768, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768x512, .f32⟩
  | .hbm, ⟨56, _⟩ => ⟨S64x512x512, .f32⟩
  | .hbm, ⟨57, _⟩ => ⟨S64x512x1024, .f32⟩
  | .hbm, ⟨58, _⟩ => ⟨S64x512x1024, .f32⟩
  | .hbm, ⟨59, _⟩ => ⟨S64x512x1024, .f32⟩
  | .hbm, ⟨60, _⟩ => ⟨S_, .f32⟩
  | .hbm, ⟨61, _⟩ => ⟨S64x512x1024, .f32⟩
  | .hbm, ⟨62, _⟩ => ⟨S64x512x1024, .f32⟩
  | .hbm, ⟨63, _⟩ => ⟨S_, .f32⟩
  | .hbm, ⟨64, _⟩ => ⟨S64x512x1024, .f32⟩
  | .hbm, ⟨65, _⟩ => ⟨S64x512x1024, .f32⟩
  | .hbm, ⟨66, _⟩ => ⟨S64x512x1024, .f32⟩
  | .hbm, ⟨67, _⟩ => ⟨S64x512x512, .f32⟩
  | .hbm, ⟨68, _⟩ => ⟨S32768x512, .f32⟩
  | .hbm, ⟨69, _⟩ => ⟨S32768x1, .f32⟩
  | .hbm, ⟨70, _⟩ => ⟨S32768x512, .f32⟩
  | .hbm, ⟨71, _⟩ => ⟨S32768x512, .f32⟩
  | .hbm, ⟨72, _⟩ => ⟨S_, .f32⟩
  | .hbm, ⟨73, _⟩ => ⟨S16384x512, .f32⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S_, .i32⟩
  | .hbm, ⟨78, _⟩ => ⟨S32768, .i32⟩
  | .hbm, ⟨79, _⟩ => ⟨S32768, .i32⟩
  | .hbm, ⟨80, _⟩ => ⟨S32768, .i32⟩
  | .hbm, ⟨81, _⟩ => ⟨S32768x1, .i32⟩
  | .hbm, ⟨82, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_call1_v0 : Ref sig .tc := ⟨.hbm, 26, rfl⟩
abbrev main_call1_v1_0 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_c_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]

class Facts₀ : Prop where
  shapeCasts_S16384x2_S32768 : S16384x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x512_S64x512x512 : S32768x512.ShapeCasts S64x512x512
  bcast_S_S64x512x1024 : S_.BroadcastsInDim S64x512x1024 (![] : Fin 0 → Fin S64x512x1024.rank)
  shapeCasts_S64x512x512_S32768x512 : S64x512x512.ShapeCasts S32768x512
  bcast_S32768x1_S32768x512_0_1 : S32768x1.BroadcastsInDim S32768x512 (![0, 1] : Fin 2 → Fin S32768x512.rank)
  bcast_S_S16384x512 : S_.BroadcastsInDim S16384x512 (![] : Fin 0 → Fin S16384x512.rank)
  gather_S32768_S32768x1_S32768_n_0_n_n_0_1_1_wf : GatherDims.WF S32768 S32768x1 S32768 [] [0] [] [0] [] 1 ![1]
  gather_S16384x512_S32768x1_S32768x512_1_0_n_n_0_1_1512_wf : GatherDims.WF S16384x512 S32768x1 S32768x512 [1] [0] [] [0] [] 1 ![1, 512]
  dot_S64x512x512_S64x512x1024_S64x512x1024_2_1_1_2_0_0_wf : DotDims.WF S64x512x512 S64x512x1024 S64x512x1024 [2] [1] [1] [2] [0] [0]
  dot_S64x512x1024_S64x1024x512_S64x512x512_2_1_1_2_0_0_wf : DotDims.WF S64x512x1024 S64x1024x512 S64x512x512 [2] [1] [1] [2] [0] [0]
  scatter_S16384x512_S32768x1_S32768x512_1_0_0_1_wf : ScatterDims.WF S16384x512 S32768x1 S32768x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf
def dot_S64x512x1024_S64x1024x512_S64x512x512_2_1_1_2_0_0 : DotDims S64x512x1024 S64x1024x512 S64x512x512 where
  lhsContracting := [2]
  rhsContracting := [1]
  lhsNonContracting := [1]
  rhsNonContracting := [2]
  lhsBatch := [0]
  rhsBatch := [0]
  wf := dot_S64x512x1024_S64x1024x512_S64x512x512_2_1_1_2_0_0_wf
def scatter_S16384x512_S32768x1_S32768x512_1_0_0_1 : ScatterDims S16384x512 S32768x1 S32768x512 where
  updateWindowDims := [1]
  insertedWindowDims := [0]
  scatterDimsToOperandDims := [0]
  indexVectorDim := 1
  wf := scatter_S16384x512_S32768x1_S32768x512_1_0_0_1_wf

class Facts : Prop extends Facts₀ where

variable [Facts]
-- ==== Proof.KernelHost.lean ====
/-
  The idealized kernel program around its one region, read as values.

  Before the region the host sorts the 32768 (token, slot) assignments by expert id, looks up each sorted position's
  token, and gathers that token's row of hidden states: the array the region's first window reads.  After the region it
  un-sorts the rows with the inverse sorting permutation, scales each by its assignment's routing weight and adds the
  two slots of every token.  This module names those stages as functions of the argument arrays, shows that the
  region finds and leaves exactly them, and states the program's run with the result so named.
-/
import proofs.«172712_j63668595196398_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem
  Idealize.ShloMosaic.StableHlo

/-! ## The stages -/

/-- The expert ids, one per assignment. -/
def flatIds (a2 : IVec S16384x2 32) : IVec S32768 32 := fun i => shapeCast S32768 a2 shapeCasts_S16384x2_S32768 i

/-- The routing weights, one per assignment. -/
def flatW (a1 : FVec Ideal S16384x2 .f32) : FVec Ideal S32768 .f32 := fun i => shapeCast S32768 a1 shapeCasts_S16384x2_S32768 i

/-- The token of each assignment: the assignment's number divided by two, rounding down. -/
def tokTable : IVec S32768 32 :=
  select
    (andi
      (cmpi .ne (signi (iotaInDim S32768 32 0)) (broadcastInDim S32768 ![] bcast_S_S32768 (signi (constantI S_ 32 2#32))))
      (cmpi .ne (Host.remsi (iotaInDim S32768 32 0) (broadcastInDim S32768 ![] bcast_S_S32768 (constantI S_ 32 2#32)))
        (broadcastInDim S32768 ![] bcast_S_S32768 (constantI S_ 32 0#32))))
    (subi (Host.divsi (iotaInDim S32768 32 0) (broadcastInDim S32768 ![] bcast_S_S32768 (constantI S_ 32 2#32)))
      (broadcastInDim S32768 ![] bcast_S_S32768 (constantI S_ 32 1#32)))
    (Host.divsi (iotaInDim S32768 32 0) (broadcastInDim S32768 ![] bcast_S_S32768 (constantI S_ 32 2#32)))

/-- A table of indices as a column of start indices, a negative index first moved up by `n`. -/
def wrapCol (n : BitVec 32) (x : IVec S32768 32) : IVec S32768x1 32 :=
  broadcastInDim S32768x1 ![0] bcast_S32768_S32768x1_0
    (select (cmpi .slt x (broadcastInDim S32768 ![] bcast_S_S32768 (constantI S_ 32 0#32)))
      (addi x (broadcastInDim S32768 ![] bcast_S_S32768 (constantI S_ 32 n))) x)

/-- The sorting table: sorted position `p` holds assignment `order p`. -/
def order (a2 : IVec S16384x2 32) : IVec S32768 32 :=
  (Host.sort2 S32768 0 comparator_i32_i32_d0 (flatIds a2) (iotaInDim S32768 32 0)).2

/-- The sorting table of the sorting table: its inverse. -/
def inv (a2 : IVec S16384x2 32) : IVec S32768 32 :=
  (Host.sort2 S32768 0 comparator_i32_i32_d0 (order a2) (iotaInDim S32768 32 0)).2

/-- The token of each sorted position. -/
def tokSorted (a2 : IVec S16384x2 32) : IVec S32768 32 :=
  Host.gather gather_S32768_S32768x1_S32768_n_0_n_n_0_1_1 tokTable (wrapCol 32768#32 (order a2))

/-- The hidden-state rows in sorted order, 512 rows per expert: what the region's first window reads. -/
def xg (a0 : FVec Ideal S16384x512 .f32) (a2 : IVec S16384x2 32) : FVec Ideal S64x512x512 .bf16 := fun i =>
  shapeCast S64x512x512
    (Host.gather gather_S16384x512_S32768x1_S32768x512_1_0_n_n_0_1_1512 (truncf .bf16 a0 bitsLt_bf16_f32)
      (wrapCol 16384#32 (tokSorted a2)))
    shapeCasts_S32768x512_S64x512x512 i

/-- The lines after the region, of the region's output `yg`, the flat weights `fw` and the inverse table `iv`: rows
    fetched back into assignment order, scaled, and the two slots of each token added to the start value. -/
def kout (yg : FVec Ideal S64x512x512 .bf16) (fw : FVec Ideal S32768 .f32) (iv : IVec S32768 32) : FVec Ideal S16384x512 .f32 :=
  Host.reduceAdd
    (fun i => shapeCast S16384x2x512
      (mulf
        (extf .f32
          (Host.gather gather_S32768x512_S32768x1_S32768x512_1_0_n_n_0_1_1512
            (fun i => shapeCast S32768x512 yg shapeCasts_S64x512x512_S32768x512 i) (wrapCol 32768#32 iv))
          bitsLt_bf16_f32)
        (broadcastInDim S32768x512 ![0, 1] bcast_S32768x1_S32768x512_0_1
          (broadcastInDim S32768x1 ![0] bcast_S32768_S32768x1_0 fw)))
      shapeCasts_S32768x512_S16384x2x512 i)
    (constant S_ .f32 0x00000000#32) reducesTo_S16384x2x512_S16384x512_d1 h_S_

variable (m : (ℓ : Loc nD τ sig) → Buf (Elt Ideal) ℓ) (ρ : Dev nD → PrngReg)

/-! ## What the region finds -/

set_option maxHeartbeats 1000000 in
/-- The region's first window reads the gathered rows. -/
theorem V_main_v21 (c : Dev nD) :
    Gen.V m c main_v21 = xg (m ((c.tc : Thread nD τ).loc main_arg0)) (m ((c.tc : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  simp only [TRef.toBuf, TRef.ofBuf, cast_eq, id]
  rfl

set_option maxHeartbeats 1000000 in
/-- The inverse table, as the lines after the region find it. -/
theorem V_main_v5 (c : Dev nD) : Gen.V m c main_v5 = inv (m ((c.tc : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  simp only [TRef.toBuf, TRef.ofBuf, cast_eq, id]
  rfl

set_option maxHeartbeats 1000000 in
/-- The flat weights, as the lines after the region find them. -/
theorem V_main_v1 (c : Dev nD) : Gen.V m c main_v1 = flatW (m ((c.tc : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

/-! ## What the lines after the region leave -/

set_option maxHeartbeats 1000000 in
/-- The program's result is the lines after the region applied to the region's output array, the flat weights and the
    inverse table. -/
theorem tail_eq (c : Dev nD) :
    Pipeline.afterTail₀ cfgs (Gen.dats m) 0 (Gen.V0 m) [Gen.hostOps1] c main_v36
      = kout ((Gen.dats m 0 c).arrAt 3 cfg0.N) (Gen.V m c main_v1) (Gen.V m c main_v5) := by
  have e22 : Pipeline.withArrays (cfgs 0).spec c (Gen.V0 m c) (fun w => (Gen.dats m 0 c).arrAt w (cfgs 0).N)
      (Proc.devRef .tc main_v22) = (Gen.dats m 0 c).arrAt 3 cfg0.N :=
    Pipeline.withArrays_arr spec0 launch0.win.arr_inj c _ _ 3
  have e5 : Pipeline.withArrays (cfgs 0).spec c (Gen.V0 m c) (fun w => (Gen.dats m 0 c).arrAt w (cfgs 0).N)
      (Proc.devRef .tc main_v5) = Gen.V m c main_v5 :=
    Pipeline.withArrays_of_ne _ c (Gen.V0 m c) _ main_v5 (by exact (by decide : ∀ w, Pipeline.arrRef spec0 w ≠ main_v5))
  have e1 : Pipeline.withArrays (cfgs 0).spec c (Gen.V0 m c) (fun w => (Gen.dats m 0 c).arrAt w (cfgs 0).N)
      (Proc.devRef .tc main_v1) = Gen.V m c main_v1 :=
    Pipeline.withArrays_of_ne _ c (Gen.V0 m c) _ main_v1 (by exact (by decide : ∀ w, Pipeline.arrRef spec0 w ≠ main_v1))
  unfold Pipeline.afterTail₀
  simp only [Gen.hostOps1, List.flatten_cons, List.flatten_nil, List.append_nil, List.cons_append, List.nil_append]
  after_results_simp
  rw [e22, e5, e1]
  rfl

/-- THE RUN, with the result named: every weakly fair execution of the program terminates with its result at the lines
    after the region applied to the region's output array, and its arguments unchanged. -/
theorem run : θ_run defs (onTc (τ := τ) (main (F := Ideal))) ⟨m, fun _ => 0, ρ⟩ (fun r => ∀ c : Dev nD,
      r.2.mem ((c.tc : Thread nD τ).loc main_v36)
        = kout ((Gen.dats m 0 c).arrAt 3 cfg0.N) (flatW (m ((c.tc : Thread nD τ).loc main_arg1)))
            (inv (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v36 (Pipeline.mem_restRefs_of main_v36 (by decide) (by decide))).trans
        ((tail_eq m c).trans (by rw [V_main_v1, V_main_v5])),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).1 2).trans (((Gen.dats m 0 c).arrAt_in 2 rfl _).trans ((Gen.A_eq m c 2).trans (Gen.V_main_arg4 m c)))⟩)
    (Gen.run_main m ρ)

end Cert.KernelIdeal.HostValue

end
-- ==== Proof.Moe.lean ====
/-
  The mathematics shared by both programs of this certificate, with no program imported.

  A mixture-of-experts layer routes 32768 = 16384 · 2 (token, slot) assignments to 64 experts.  Both programs sort the
  assignments by expert id, give sorted position `p` to expert `p / 512`, and push the row of hidden states that
  position holds through that expert's two-layer feed-forward network
      y = silu (x · W1) · W2,      silu a = a · 1 / (1 + e^(-a)).
  This module names that row function, on the extended reals.
-/
import Idealize.ShloMosaic.PureOps.Ideal
import Idealize.ShloMosaic.Lib.ValueIdx

noncomputable section

namespace Cert.Moe

open Idealize.ShloMosaic

/-- `silu a = a · logistic a`, the logistic function being `1 / (1 + e^(-a))` with its limits at the infinities. -/
def silu (a : EReal) : EReal := a * Ideal.logistic a

/-- One expert's feed-forward network on one row `x` of 512 entries: the hidden layer's entry `f` is
    `silu (∑ k, x k · w1 k f)`, and output entry `h` is the hidden layer against column `h` of `w2`. -/
def ffn (x : Fin 512 → EReal) (w1 : Fin 512 → Fin 1024 → EReal) (w2 : Fin 1024 → Fin 512 → EReal) (h : Fin 512) : EReal :=
  ∑ f : Fin 1024, silu (∑ k : Fin 512, x k * w1 k f) * w2 f h

end Cert.Moe

end
-- ==== Proof.KernelRow.lean ====
/-
  One expert's block of the kernel, read at an index.

  At a grid point the kernel body holds one block of gathered rows `x` [1,512,512], that expert's first weight slab
  `w1` [1,512,1024] and second weight slab `w2` [1,1024,512].  It drops the leading unit axis of each, forms
  `a = x · w1` on the matrix unit into a zero accumulator, `s = a * logistic a`, `y = s · w2` into a zero
  accumulator, and stores `y` under a leading unit axis over the whole output block.  On the extended reals a change of
  float format is the identity and a product into the zero accumulator is the plain sum over the contracted axis, so
  entry (0, r, h) of the block is
      ∑ f, silu (∑ k, x (0, r, k) * w1 (0, k, f)) * w2 (0, f, h),
  the feed-forward network `Cert.Moe.ffn` of row `r` of the block.
-/
import proofs.«172712_j63668595196398_2_alg».proof.Proof.Gen.KernelIdeal.Frame
import proofs.«172712_j63668595196398_2_alg».proof.Proof.Moe
import Idealize.ShloMosaic.PureOps.Ideal.Laws
import Idealize.ShloMosaic.Lib.ValueLayout

noncomputable section

namespace Cert.KernelIdeal.BlockValue

open Cert.KernelIdeal Cert.KernelIdeal.Gen Idealize.ShloMosaic Idealize.ShloMosaic.ValueIdx

/-- The first product's dimension numbers: [512,512] · [512,1024], contracting the left's columns with the right's rows. -/
abbrev D1 : DotDims S512x512 S512x1024 S512x1024 := dot_S512x512_S512x1024_S512x1024_1_0_0_1_n_n
/-- The second product's: [512,1024] · [1024,512]. -/
abbrev D2 : DotDims S512x1024 S1024x512 S512x512 := dot_S512x1024_S1024x512_S512x512_1_0_0_1_n_n

/-! ## The operand indices of the two products, coordinate by coordinate -/

theorem lhs1_0 (i : S512x1024.Idx) (q : D1.contr.Idx) : (D1.lhsIdx i q 0).val = (i 0).val := by
  unfold DotDims.lhsIdx
  rw [dif_neg (show ¬(0 : Fin S512x512.rank) ∈ D1.lhsBatch by decide), dif_pos (show (0 : Fin S512x512.rank) ∈ D1.lhsNonContracting by decide)]
  rfl
theorem lhs1_1 (i : S512x1024.Idx) (q : D1.contr.Idx) : (D1.lhsIdx i q 1).val = (q ⟨0, by decide⟩).val :=
  D1.lhsIdx_val_of_single rfl i q
theorem rhs1_0 (i : S512x1024.Idx) (q : D1.contr.Idx) : (D1.rhsIdx i q 0).val = (q ⟨0, by decide⟩).val :=
  D1.rhsIdx_val_of_single rfl i q
theorem rhs1_1 (i : S512x1024.Idx) (q : D1.contr.Idx) : (D1.rhsIdx i q 1).val = (i 1).val := by
  unfold DotDims.rhsIdx
  rw [dif_neg (show ¬(1 : Fin S512x1024.rank) ∈ D1.rhsBatch by decide), dif_pos (show (1 : Fin S512x1024.rank) ∈ D1.rhsNonContracting by decide)]
  rfl

theorem lhs2_0 (i : S512x512.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem lhs2_1 (i : S512x512.Idx) (q : D2.contr.Idx) : (D2.lhsIdx i q 1).val = (q ⟨0, by decide⟩).val :=
  D2.lhsIdx_val_of_single rfl i q
theorem rhs2_0 (i : S512x512.Idx) (q : D2.contr.Idx) : (D2.rhsIdx i q 0).val = (q ⟨0, by decide⟩).val :=
  D2.rhsIdx_val_of_single rfl i q
theorem rhs2_1 (i : S512x512.Idx) (q : D2.contr.Idx) : (D2.rhsIdx i q 1).val = (i 1).val := by
  unfold DotDims.rhsIdx
  rw [dif_neg (show ¬(1 : Fin S1024x512.rank) ∈ D2.rhsBatch by decide), dif_pos (show (1 : Fin S1024x512.rank) ∈ D2.rhsNonContracting by decide)]
  rfl

/-! ## The two products at an index -/

/-- Entry (r, f) of `a · b` into the zero accumulator: the sum over the 512 contracted positions. -/
theorem mm1_apply (a : FVec Ideal S512x512 .bf16) (b : FVec Ideal S512x1024 .bf16) (r : Fin 512) (f : Fin 1024) :
    matmul D1 none a b (constant S512x1024 .f32 0x00000000#32) (ix2 r f) = ∑ k : Fin 512, a (ix2 r k) * b (ix2 k f) := by
  refine (Ideal.matmul_constant_zero_apply D1 none a b (ix2 r f)).trans ?_
  rw [← Equiv.sum_comp (contrEquiv1 D1 512 rfl rfl).symm]
  refine Finset.sum_congr rfl fun k _ => ?_
  have hk := contrEquiv1_symm_val D1 512 rfl rfl k
  have el : D1.lhsIdx (ix2 r f) ((contrEquiv1 D1 512 rfl rfl).symm k) = ix2 r k := funext fun a => Fin.ext (by
    match a with
    | ⟨0, _⟩ => exact lhs1_0 _ _
    | ⟨1, _⟩ => exact (lhs1_1 _ _).trans hk)
  have er : D1.rhsIdx (ix2 r f) ((contrEquiv1 D1 512 rfl rfl).symm k) = ix2 k f := funext fun a => Fin.ext (by
    match a with
    | ⟨0, _⟩ => exact (rhs1_0 _ _).trans hk
    | ⟨1, _⟩ => exact rhs1_1 _ _)
  rw [el, er]

/-- Entry (r, h) of `s · b` into the zero accumulator: the sum over the 1024 contracted positions. -/
theorem mm2_apply (s : FVec Ideal S512x1024 .bf16) (b : FVec Ideal S1024x512 .bf16) (r h : Fin 512) :
    matmul D2 none s b (constant S512x512 .f32 0x00000000#32) (ix2 r h) = ∑ f : Fin 1024, s (ix2 r f) * b (ix2 f h) := by
  refine (Ideal.matmul_constant_zero_apply D2 none s b (ix2 r h)).trans ?_
  rw [← Equiv.sum_comp (contrEquiv1 D2 1024 rfl rfl).symm]
  refine Finset.sum_congr rfl fun f _ => ?_
  have hf := contrEquiv1_symm_val D2 1024 rfl rfl f
  have el : D2.lhsIdx (ix2 r h) ((contrEquiv1 D2 1024 rfl rfl).symm f) = ix2 r f := funext fun a => Fin.ext (by
    match a with
    | ⟨0, _⟩ => exact lhs2_0 _ _
    | ⟨1, _⟩ => exact (lhs2_1 _ _).trans hf)
  have er : D2.rhsIdx (ix2 r h) ((contrEquiv1 D2 1024 rfl rfl).symm f) = ix2 f h := funext fun a => Fin.ext (by
    match a with
    | ⟨0, _⟩ => exact (rhs2_0 _ _).trans hf
    | ⟨1, _⟩ => exact rhs2_1 _ _)
  rw [el, er]

/-! ## The body's operands and its activation at an index -/

/-- The block of rows without its unit axis. -/
theorem rows_apply (v0 : Vec Ideal S1x512x512 .bf16) (r k : Fin 512) :
    shapeCast S512x512 v0 shapeCasts_S1x512x512_S512x512 (ix2 r k) = v0 (ix3 0 r k) :=
  shapeCast_1ab_ab_apply v0 _ r k

/-- The first weight slab without its unit axis; the change of format is the identity on extended reals. -/
theorem w1_apply (v2 : Vec Ideal S1x512x1024 .f32) (k : Fin 512) (f : Fin 1024) :
    truncf (F := Ideal) .bf16 (shapeCast S512x1024 v2 shapeCasts_S1x512x1024_S512x1024) bitsLt_bf16_f32 (ix2 k f) = v2 (ix3 0 k f) :=
  shapeCast_1ab_ab_apply v2 _ k f

/-- The second weight slab likewise. -/
theorem w2_apply (v5 : Vec Ideal S1x1024x512 .f32) (f : Fin 1024) (h : Fin 512) :
    truncf (F := Ideal) .bf16 (shapeCast S1024x512 v5 shapeCasts_S1x1024x512_S1024x512) bitsLt_bf16_f32 (ix2 f h) = v5 (ix3 0 f h) :=
  shapeCast_1ab_ab_apply v5 _ f h

/-- `a * logistic a`, entry by entry, is `silu`. -/
theorem act_apply (A : FVec Ideal S512x1024 .f32) (j : S512x1024.Idx) :
    truncf .bf16 (mulf A (logistic A)) bitsLt_bf16_f32 j = Cert.Moe.silu (A j) := rfl

/-- The result's change of format is the identity on extended reals. -/
theorem narrow_apply (Y : FVec Ideal S512x512 .f32) (j : S512x512.Idx) : truncf .bf16 Y bitsLt_bf16_f32 j = Y j := rfl

/-- The hidden layer before the activation: entry (r, f) is row `r` of the block against column `f` of the first slab. -/
theorem hidden_apply (v0 : Vec Ideal S1x512x512 .bf16) (v2 : Vec Ideal S1x512x1024 .f32) (r : Fin 512) (f : Fin 1024) :
    matmul (F := Ideal) (φ₁ := .bf16) D1 none (shapeCast S512x512 v0 shapeCasts_S1x512x512_S512x512)
        (truncf .bf16 (shapeCast S512x1024 v2 shapeCasts_S1x512x1024_S512x1024) bitsLt_bf16_f32)
        (constant S512x1024 .f32 0x00000000#32) (ix2 r f)
      = ∑ k : Fin 512, v0 (ix3 0 r k) * v2 (ix3 0 k f) :=
  (mm1_apply _ _ r f).trans (Finset.sum_congr rfl fun k _ => congrArg₂ (· * ·) (rows_apply v0 r k) (w1_apply v2 k f))

/-! ## The body's stored value at an index -/

/-- Entry (u, r, h) of the value the body stores is the feed-forward network of row `r` of the block at `h`. -/
theorem pay_apply (v0 : Vec Ideal S1x512x512 .bf16) (v2 : Vec Ideal S1x512x1024 .f32) (v5 : Vec Ideal S1x1024x512 .f32)
    (u : Fin 1) (r h : Fin 512) :
    k0_pay1 (F := Ideal) v0 v2 v5 (ix3 u r h)
      = Cert.Moe.ffn (fun k => v0 (ix3 0 r k)) (fun k f => v2 (ix3 0 k f)) (fun f h' => v5 (ix3 0 f h')) h := by
  unfold k0_pay1
  refine (shapeCast_ab_1ab_apply _ _ u r h).trans ?_
  refine (narrow_apply _ (ix2 r h)).trans ?_
  refine (mm2_apply _ _ r h).trans ?_
  unfold Cert.Moe.ffn
  refine Finset.sum_congr rfl fun f _ => ?_
  exact congrArg₂ (· * ·) ((act_apply _ _).trans (congrArg Cert.Moe.silu (hidden_apply v0 v2 r f))) (w2_apply v5 f h)

/-! ## The output block at an index -/

theorem hz : (![0, 0, 0] : Fin 3 → Nat) = fun _ => 0 := funext fun a => by fin_cases a <;> rfl

/-- What the body leaves in the output block, at (0, r, h): the feed-forward network of row `r` of the block of rows,
    with the two weight slabs the point holds. -/
theorem out_apply (x0 : Vec Ideal S1x512x512 .bf16) (x1 : Vec Ideal S1x512x1024 .f32) (x2 : Vec Ideal S1x1024x512 .f32)
    (r h : Fin 512) :
    out0_3 (F := Ideal) x0 x1 x2 (ix3 0 r h)
      = Cert.Moe.ffn (fun k => x0 (ix3 0 r k)) (fun k f => x1 (ix3 0 k f)) (fun f h' => x2 (ix3 0 f h')) h := by
  unfold out0_3
  rw [View.canon_unit_zero hz]
  simp only [View.ld_unit_zero (S := S1x512x512) hz, View.ld_unit_zero (S := S1x512x1024) hz, View.ld_unit_zero (S := S1x1024x512) hz]
  exact pay_apply x0 x1 x2 0 r h

end Cert.KernelIdeal.BlockValue

end
-- ==== Proof.KernelBlocks.lean ====
/-
  From the kernel's blocks to its output array.

  The grid has 64 points, one per expert.  At point `t` every window's block index is (t, 0, 0): the body is handed rows
  512·t … 512·t + 511 of the sorted rows as a [1,512,512] block, slab `t` of each weight array, and writes back block `t`
  of the output.  So what point `t` writes back is block `t` of ONE whole-array function `G` of the three arrays the
  windows read — entry (e, r, h) is the feed-forward network of row (e, r) with expert `e`'s two slabs —, the 64 blocks
  tile the output array (the point that covers entry (e, r, h) is `e`), and the array ends holding `G`.
-/
import proofs.«172712_j63668595196398_2_alg».proof.Proof.KernelRow
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- The output array as one function of the sorted rows `x` [64,512,512] and the weight arrays `w1` [64,512,1024],
    `w2` [64,1024,512]: entry (e, r, h) is the feed-forward network of row (e, r) of `x` with slab `e` of `w1` and
    slab `e` of `w2`, at `h`. -/
def G (x : FVec Ideal S64x512x512 .bf16) (w1 : FVec Ideal S64x512x1024 .f32) (w2 : FVec Ideal S64x1024x512 .f32) :
    FVec Ideal S64x512x512 .bf16 := fun i =>
  Cert.Moe.ffn (fun k => x (ix3 (n0 := 64) (n1 := 512) (n2 := 512) (i 0) (i 1) k))
    (fun k f => w1 (ix3 (n0 := 64) (n1 := 512) (n2 := 1024) (i 0) k f))
    (fun f h' => w2 (ix3 (n0 := 64) (n1 := 1024) (n2 := 512) (i 0) f h')) (i 2)

theorem G_apply (x : FVec Ideal S64x512x512 .bf16) (w1 : FVec Ideal S64x512x1024 .f32) (w2 : FVec Ideal S64x1024x512 .f32)
    (e : Fin 64) (r h : Fin 512) :
    G x w1 w2 (ix3 e r h)
      = Cert.Moe.ffn (fun k => x (ix3 e r k)) (fun k f => w1 (ix3 e k f)) (fun f h' => w2 (ix3 e f h')) h := rfl

/-! ## One block of it -/

/-- If a block of rows and two weight slabs are block `e` of the three arrays, what the body leaves in the output block
    is block `e` of `G`: at the block's index `y` and the array's index `i` with `i = (e, y 1, y 2)`. -/
theorem block_entry (X : FVec Ideal S64x512x512 .bf16) (W1 : FVec Ideal S64x512x1024 .f32) (W2 : FVec Ideal S64x1024x512 .f32)
    (x0 : Vec Ideal S1x512x512 .bf16) (x1 : Vec Ideal S1x512x1024 .f32) (x2 : Vec Ideal S1x1024x512 .f32) (e : Fin 64)
    (h0 : ∀ r k : Fin 512, x0 (ix3 0 r k) = X (ix3 e r k))
    (h1 : ∀ (k : Fin 512) (f : Fin 1024), x1 (ix3 0 k f) = W1 (ix3 e k f))
    (h2 : ∀ (f : Fin 1024) (h : Fin 512), x2 (ix3 0 f h) = W2 (ix3 e f h))
    (y : S1x512x512.Idx) (i : S64x512x512.Idx)
    (hi0 : (i 0).val = e.val) (hi1 : (i 1).val = (y 1).val) (hi2 : (i 2).val = (y 2).val) :
    out0_3 (F := Ideal) x0 x1 x2 y = G X W1 W2 i := by
  obtain ⟨u, r, h, rfl⟩ : ∃ (u : Fin 1) (r h : Fin 512), y = ix3 u r h := ⟨y 0, y 1, y 2, eq_ix3 y⟩
  obtain rfl : u = 0 := Subsingleton.elim _ _
  obtain ⟨e', r', h', rfl⟩ : ∃ (e' : Fin 64) (r' h' : Fin 512), i = ix3 e' r' h' := ⟨i 0, i 1, i 2, eq_ix3 i⟩
  obtain rfl : e' = e := Fin.ext hi0
  obtain rfl : r' = r := Fin.ext hi1
  obtain rfl : h' = h := Fin.ext hi2
  rw [out_apply, G_apply]
  simp only [h0, h1, h2]

/-! ## The windows' blocks at a point -/

variable (m : (ℓ : Loc nD τ sig) → Buf (Elt Ideal) ℓ)

/-- The printed index maps, decided over the 64 grid points: every window's block index at point `t` is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The block of rows at point `t` is rows 512·t … of the sorted rows: block entry `y` is array entry (t, y 1, y 2). -/
theorem rows_block (c : Dev nD) (t : Fin cfg0.N) (y : S1x512x512.Idx) (i : S64x512x512.Idx)
    (hi0 : (i 0).val = t.val) (hi1 : (i 1).val = (y 1).val) (hi2 : (i 2).val = (y 2).val) :
    (iblk m c 0 t : Vec Ideal S1x512x512 .bf16) y = (V m c main_v21 : S64x512x512.Idx → Elt Ideal .bf16) i := by
  obtain ⟨⟨e0, e1, e2⟩, -⟩ := idx_facts t
  unfold iblk
  rw [View.read_apply]
  show V m c main_v21 (((cfg0.win 0).blk t).view.emb y) = V m c main_v21 i
  refine congrArg (V m c main_v21) (funext fun a => Fin.ext ?_)
  have hy : (y 0).val < 1 := (y 0).isLt
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 512 + 1 * (y 2).val = (i 2).val; omega

/-- The first weight window's block at point `t` is slab `t` of the first weight array. -/
theorem w1_block (c : Dev nD) (t : Fin cfg0.N) (y : S1x512x1024.Idx) (i : S64x512x1024.Idx)
    (hi0 : (i 0).val = t.val) (hi1 : (i 1).val = (y 1).val) (hi2 : (i 2).val = (y 2).val) :
    (iblk m c 1 t : Vec Ideal S1x512x1024 .f32) y = (V m c main_arg3 : S64x512x1024.Idx → Elt Ideal .f32) i := by
  obtain ⟨-, ⟨e0, e1, e2⟩, -⟩ := idx_facts t
  unfold iblk
  rw [View.read_apply]
  show V m c main_arg3 (((cfg0.win 1).blk t).view.emb y) = V m c main_arg3 i
  refine congrArg (V m c main_arg3) (funext fun a => Fin.ext ?_)
  have hy : (y 0).val < 1 := (y 0).isLt
  match a with
  | ⟨0, _⟩ => show win0_1.index t (0 : Fin 3) * 1 + 1 * (y 0).val = (i 0).val; omega
  | ⟨1, _⟩ => show win0_1.index t (1 : Fin 3) * 512 + 1 * (y 1).val = (i 1).val; omega
  | ⟨2, _⟩ => show win0_1.index t (2 : Fin 3) * 1024 + 1 * (y 2).val = (i 2).val; omega

/-- The second weight window's block at point `t` is slab `t` of the second weight array. -/
theorem w2_block (c : Dev nD) (t : Fin cfg0.N) (y : S1x1024x512.Idx) (i : S64x1024x512.Idx)
    (hi0 : (i 0).val = t.val) (hi1 : (i 1).val = (y 1).val) (hi2 : (i 2).val = (y 2).val) :
    (iblk m c 2 t : Vec Ideal S1x1024x512 .f32) y = (V m c main_arg4 : S64x1024x512.Idx → Elt Ideal .f32) i := by
  obtain ⟨-, -, ⟨e0, e1, e2⟩, -⟩ := idx_facts t
  unfold iblk
  rw [View.read_apply]
  show V m c main_arg4 (((cfg0.win 2).blk t).view.emb y) = V m c main_arg4 i
  refine congrArg (V m c main_arg4) (funext fun a => Fin.ext ?_)
  have hy : (y 0).val < 1 := (y 0).isLt
  match a with
  | ⟨0, _⟩ => show win0_2.index t (0 : Fin 3) * 1 + 1 * (y 0).val = (i 0).val; omega
  | ⟨1, _⟩ => show win0_2.index t (1 : Fin 3) * 1024 + 1 * (y 1).val = (i 1).val; omega
  | ⟨2, _⟩ => show win0_2.index t (2 : Fin 3) * 512 + 1 * (y 2).val = (i 2).val; omega

/-! ## What a point writes back -/

/-- The output array after the region, as a function of the three arrays the windows read as the region finds them. -/
abbrev result (c : Dev nD) : Buf (Elt Ideal) ((c : Thread nD τ).loc main_v22) :=
  G (V m c main_v21) (V m c main_arg3) (V m c main_arg4)

/-- What point `t` writes back is block `t` of `G` of the arrays. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  obtain ⟨-, -, -, ⟨e0, e1, e2⟩⟩ := idx_facts t
  have hN : grid0.N = 64 := N_0
  have ht : t.val < 64 := by have h : t.val < grid0.N := t.isLt; omega
  funext j
  rw [View.read_apply]
  show out0_3 (F := Ideal) (iblk m c 0 t) (iblk m c 1 t) (iblk m c 2 t) j
    = G (V m c main_v21) (V m c main_arg3) (V m c main_arg4) (((cfg0.win 3).blk t).view.emb j)
  have hj : (j 0).val < 1 := (j 0).isLt
  refine block_entry (V m c main_v21) (V m c main_arg3) (V m c main_arg4) (iblk m c 0 t) (iblk m c 1 t) (iblk m c 2 t)
    ⟨t.val, ht⟩ (fun r k => rows_block m c t (ix3 0 r k) (ix3 ⟨t.val, ht⟩ r k) rfl rfl rfl)
    (fun k f => w1_block m c t (ix3 0 k f) (ix3 ⟨t.val, ht⟩ k f) rfl rfl rfl)
    (fun f h => w2_block m c t (ix3 0 f h) (ix3 ⟨t.val, ht⟩ f h) rfl rfl rfl)
    j (((cfg0.win 3).blk t).view.emb j) ?_ ?_ ?_
  · show win0_3.index t (0 : Fin 3) * 1 + 1 * (j 0).val = t.val; omega
  · show win0_3.index t (1 : Fin 3) * 512 + 1 * (j 1).val = (j 1).val; omega
  · show win0_3.index t (2 : Fin 3) * 512 + 1 * (j 2).val = (j 2).val; omega

/-! ## The blocks tile the array -/

/-- An index of the output array is in point `t`'s block iff each coordinate is in the block's range on its axis. -/
theorem mem_blk (t : Fin cfg0.N) (i : S64x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v22).slice (win0_3.rect t)).set ↔ _
  rw [View.set_slice_whole, Rect.mem_set_unit]
  exact Iff.rfl

/-- Every entry (e, r, h) of the output array is in the block of point `e`, which is written back. -/
theorem cover (i : S64x512x512.Idx) : ∃ t : Fin cfg0.N, (cfg0.win 3).flush t = true ∧ i ∈ ((cfg0.win 3).blk t).view.set := by
  have hN : grid0.N = 64 := N_0
  have hi0 : (i 0).val < 64 := (i 0).isLt
  have hi1 : (i 1).val < 512 := (i 1).isLt
  have hi2 : (i 2).val < 512 := (i 2).isLt
  have ht : (i 0).val < cfg0.N := by show (i 0).val < grid0.N; omega
  obtain ⟨-, -, -, ⟨e0, e1, e2⟩⟩ := idx_facts ⟨(i 0).val, ht⟩
  refine ⟨⟨(i 0).val, ht⟩, flush0_3 _, ?_⟩
  rw [mem_blk]
  intro a
  match a with
  | ⟨0, _⟩ => show win0_3.index ⟨(i 0).val, ht⟩ (0 : Fin 3) * 1 ≤ (i 0).val ∧ (i 0).val < win0_3.index ⟨(i 0).val, ht⟩ (0 : Fin 3) * 1 + 1; rw [e0]; show (i 0).val * 1 ≤ (i 0).val ∧ (i 0).val < (i 0).val * 1 + 1; omega
  | ⟨1, _⟩ => show win0_3.index ⟨(i 0).val, ht⟩ (1 : Fin 3) * 512 ≤ (i 1).val ∧ (i 1).val < win0_3.index ⟨(i 0).val, ht⟩ (1 : Fin 3) * 512 + 512; rw [e1]; omega
  | ⟨2, _⟩ => show win0_3.index ⟨(i 0).val, ht⟩ (2 : Fin 3) * 512 ≤ (i 2).val ∧ (i 2).val < win0_3.index ⟨(i 0).val, ht⟩ (2 : Fin 3) * 512 + 512; rw [e2]; omega

/-! ## The array after the region -/

/-- The output array ends holding `G` of the sorted rows and the two weight arrays as the region finds them. -/
theorem final (c : Dev nD) :
    (dats m 0 c).arrAt 3 cfg0.N = G (V m c main_v21) (V m c main_arg3) (V m c main_arg4) :=
  (dats m 0 c).arrAt_eq_of_cover 3 (result m c) (fun t _ => flushed_eq m c t) cover

end Cert.KernelIdeal.BlockValue

end
-- ==== Proof.MoeOut.lean ====
/-
  The layer's output as one function of its arguments and of the sorting permutation, and the re-indexing law that
  joins the two programs.

  Assignment `i` (of 32768) belongs to token `i / 2`, slot `i % 2`.  Sorting the assignments by expert id gives a
  permutation `σ`: sorted position `p` holds assignment `σ p`, is served by expert `p / 512`, and its row of the
  grouped feed-forward output is `Y p`.  One program walks the sorted positions and adds row `p`, scaled by the
  weight of assignment `σ p`, into token `σ p / 2`; the other walks the tokens and, for each of the two slots,
  fetches the row at `σ⁻¹` of that assignment.  Both sums run over the same two terms.
-/
import proofs.«172712_j63668595196398_2_alg».proof.Proof.Moe
import Mathlib.Algebra.BigOperators.Group.Finset.Basic
import Mathlib.Logic.Equiv.Defs

noncomputable section

namespace Cert.Moe

open Idealize.ShloMosaic Idealize.ShloMosaic.ValueIdx

/-- The token of assignment `i`. -/
def tokOf (i : Fin 32768) : Fin 16384 := ⟨i.val / 2, by omega⟩
/-- The slot of assignment `i`. -/
def slotOf (i : Fin 32768) : Fin 2 := ⟨i.val % 2, Nat.mod_lt _ (by norm_num)⟩
/-- The assignment of token `b`, slot `k`. -/
def asg (b : Fin 16384) (k : Fin 2) : Fin 32768 := ⟨2 * b.val + k.val, by omega⟩
/-- The expert that serves sorted position `p`. -/
def expertOf (p : Fin 32768) : Fin 64 := ⟨p.val / 512, by omega⟩
/-- The row of sorted position `p` inside its expert's block of 512. -/
def rowOf (p : Fin 32768) : Fin 512 := ⟨p.val % 512, Nat.mod_lt _ (by norm_num)⟩
/-- Sorted position `512 e + r`. -/
def posOf (e : Fin 64) (r : Fin 512) : Fin 32768 := ⟨512 * e.val + r.val, by omega⟩

theorem tokOf_asg (b : Fin 16384) (k : Fin 2) : tokOf (asg b k) = b := Fin.ext (by simp only [tokOf, asg]; omega)
theorem slotOf_asg (b : Fin 16384) (k : Fin 2) : slotOf (asg b k) = k := Fin.ext (by simp only [slotOf, asg]; omega)
theorem expertOf_posOf (e : Fin 64) (r : Fin 512) : expertOf (posOf e r) = e := Fin.ext (by simp only [expertOf, posOf]; omega)
theorem rowOf_posOf (e : Fin 64) (r : Fin 512) : rowOf (posOf e r) = r := Fin.ext (by simp only [rowOf, posOf]; omega)
theorem posOf_expertOf_rowOf (p : Fin 32768) : posOf (expertOf p) (rowOf p) = p :=
  Fin.ext (by simp only [posOf, expertOf, rowOf]; omega)

/-- Row `p` of the grouped feed-forward output at column `h`: expert `p / 512` applied to the hidden-state row of
    the token of assignment `σ p`. -/
def Y (hs : (⟨2, ![16384, 512]⟩ : Shape).Idx → EReal) (W1 : (⟨3, ![64, 512, 1024]⟩ : Shape).Idx → EReal)
    (W2 : (⟨3, ![64, 1024, 512]⟩ : Shape).Idx → EReal) (σ : Equiv.Perm (Fin 32768)) (p : Fin 32768) (h : Fin 512) : EReal :=
  ffn (fun k => hs (ix2 (tokOf (σ p)) k)) (fun k f => W1 (ix3 (expertOf p) k f)) (fun f h' => W2 (ix3 (expertOf p) f h')) h

/-- The layer's output at token `b`, column `h`: the start value `z` plus, over the two slots, the output row of
    the sorted position holding that assignment times the assignment's routing weight. -/
def out (z : EReal) (hs : (⟨2, ![16384, 512]⟩ : Shape).Idx → EReal) (w : (⟨2, ![16384, 2]⟩ : Shape).Idx → EReal)
    (W1 : (⟨3, ![64, 512, 1024]⟩ : Shape).Idx → EReal) (W2 : (⟨3, ![64, 1024, 512]⟩ : Shape).Idx → EReal)
    (σ : Equiv.Perm (Fin 32768)) (b : Fin 16384) (h : Fin 512) : EReal :=
  z + ∑ k : Fin 2, Y hs W1 W2 σ (σ.symm (asg b k)) h * w (ix2 b k)

/-- The assignments of token `b` are its two slots. -/
theorem sum_slots (G : Fin 32768 → EReal) (b : Fin 16384) :
    ∑ i ∈ Finset.univ.filter (fun i : Fin 32768 => i.val / 2 = b.val), G i = ∑ k : Fin 2, G (asg b k) := by
  have himg : Finset.univ.filter (fun i : Fin 32768 => i.val / 2 = b.val) = Finset.univ.image (asg b) := by
    ext i
    simp only [Finset.mem_filter, Finset.mem_univ, true_and, Finset.mem_image]
    constructor
    · intro h
      exact ⟨⟨i.val % 2, Nat.mod_lt _ (by norm_num)⟩, Fin.ext (by simp only [asg]; omega)⟩
    · rintro ⟨k, rfl⟩
      simp only [asg]; omega
  rw [himg, Finset.sum_image]
  intro k _ k' _ e
  have := congrArg Fin.val e
  simp only [asg] at this
  exact Fin.ext (by omega)

/-- THE LAW: summing, over the sorted positions whose assignment belongs to token `b`, a term `g p` is summing
    over the two slots of `b` the term at the position `σ⁻¹` gives that assignment. -/
theorem sum_positions_of_token (σ : Equiv.Perm (Fin 32768)) (g : Fin 32768 → EReal) (b : Fin 16384) :
    ∑ p ∈ Finset.univ.filter (fun p : Fin 32768 => (σ p).val / 2 = b.val), g p
      = ∑ k : Fin 2, g (σ.symm (asg b k)) := by
  rw [← sum_slots (fun i => g (σ.symm i)) b]
  refine Finset.sum_equiv σ ?_ ?_
  · intro p
    simp only [Finset.mem_filter, Finset.mem_univ, true_and]
  · intro p _
    simp only [Equiv.symm_apply_apply]

end Cert.Moe

end
-- ==== Proof.MoeLayout.lean ====
/-
  The layer's reshapes, broadcasts and slot sum read at coordinates, with no program imported.

  32768 rows of 512 are 64 blocks of 512 rows (sorted position `512 e + r` is row `r` of expert `e`'s block), and also
  16384 tokens of 2 slots (assignment `2 b + k`); a table of 32768 entries is a column, and a column is spread over 512
  columns; the sum over the slot axis of a [16384, 2, 512] array at (b, c) is the start value plus its two slots.
-/
import proofs.«172712_j63668595196398_2_alg».proof.Proof.MoeOut
import Idealize.ShloMosaic.Lib.Pipeline.Value
import Idealize.ShloMosaic.PureOps.Ideal.Laws

noncomputable section

namespace Cert.Moe

open Idealize.ShloMosaic Idealize.ShloMosaic.ValueIdx

variable {α : Type}

/-- Row `r` of block `e` is row `512 e + r`. -/
theorem rows_to_blocks (x : (⟨2, ![32768, 512]⟩ : Shape).Idx → α)
    (h : (⟨2, ![32768, 512]⟩ : Shape).ShapeCasts ⟨3, ![64, 512, 512]⟩) (e : Fin 64) (r k : Fin 512) :
    shapeCast ⟨3, ![64, 512, 512]⟩ x h (ix3 e r k) = x (ix2 (posOf e r) k) :=
  shapeCast_apply x h (ix3 e r k) (ix2 (posOf e r) k) (by
    rw [Shape.rowMajor_val_two, Shape.rowMajor_val_three]
    show (512 * e.val + r.val) * 512 + k.val = (e.val * 512 + r.val) * 512 + k.val
    omega)

/-- Row `p` is row `p % 512` of block `p / 512`. -/
theorem blocks_to_rows (y : (⟨3, ![64, 512, 512]⟩ : Shape).Idx → α)
    (h : (⟨3, ![64, 512, 512]⟩ : Shape).ShapeCasts ⟨2, ![32768, 512]⟩) (p : Fin 32768) (k : Fin 512) :
    shapeCast ⟨2, ![32768, 512]⟩ y h (ix2 p k) = y (ix3 (expertOf p) (rowOf p) k) :=
  shapeCast_apply y h (ix2 p k) (ix3 (expertOf p) (rowOf p) k) (by
    rw [Shape.rowMajor_val_two, Shape.rowMajor_val_three]
    show (p.val / 512 * 512 + p.val % 512) * 512 + k.val = p.val * 512 + k.val
    omega)

/-- Slot `k` of token `b` is row `2 b + k`. -/
theorem rows_to_slots (z : (⟨2, ![32768, 512]⟩ : Shape).Idx → α)
    (h : (⟨2, ![32768, 512]⟩ : Shape).ShapeCasts ⟨3, ![16384, 2, 512]⟩) (b : Fin 16384) (k : Fin 2) (c : Fin 512) :
    shapeCast ⟨3, ![16384, 2, 512]⟩ z h (ix3 b k c) = z (ix2 (asg b k) c) :=
  shapeCast_apply z h (ix3 b k c) (ix2 (asg b k) c) (by
    rw [Shape.rowMajor_val_two, Shape.rowMajor_val_three]
    show (2 * b.val + k.val) * 512 + c.val = (b.val * 2 + k.val) * 512 + c.val
    omega)

/-- Entry `i` of the flattened [16384, 2] table is slot `i % 2` of token `i / 2`. -/
theorem flat_apply (w : (⟨2, ![16384, 2]⟩ : Shape).Idx → α)
    (h : (⟨2, ![16384, 2]⟩ : Shape).ShapeCasts ⟨1, ![32768]⟩) (i : Fin 32768) :
    shapeCast ⟨1, ![32768]⟩ w h (ix1 i) = w (ix2 (tokOf i) (slotOf i)) :=
  shapeCast_apply w h (ix1 i) (ix2 (tokOf i) (slotOf i)) (by
    rw [Shape.rowMajor_val_two, Shape.rowMajor_val_one]
    show i.val / 2 * 2 + i.val % 2 = i.val
    omega)

/-- A table as a column, read at row `p`. -/
theorem column_apply (v : (⟨1, ![32768]⟩ : Shape).Idx → α)
    (hb : (⟨1, ![32768]⟩ : Shape).BroadcastsInDim ⟨2, ![32768, 1]⟩ ![0]) (p : Fin 32768) :
    broadcastInDim ⟨2, ![32768, 1]⟩ ![0] hb v (ix2 p 0) = v (ix1 p) := by
  unfold broadcastInDim
  refine congrArg v (funext fun a => ?_)
  match a with
  | ⟨0, _⟩ => rfl

/-- A column spread over 512 columns, read at (p, k). -/
theorem spread_apply (col : (⟨2, ![32768, 1]⟩ : Shape).Idx → α)
    (hb : (⟨2, ![32768, 1]⟩ : Shape).BroadcastsInDim ⟨2, ![32768, 512]⟩ ![0, 1]) (p : Fin 32768) (k : Fin 512) :
    broadcastInDim ⟨2, ![32768, 512]⟩ ![0, 1] hb col (ix2 p k) = col (ix2 p 0) := by
  unfold broadcastInDim
  refine congrArg col (funext fun a => ?_)
  match a with
  | ⟨0, _⟩ => rfl
  | ⟨1, _⟩ => rfl

/-- The sum over the slot axis at (b, c): the start value plus the two slots. -/
theorem slot_sum_apply (h' : (⟨3, ![16384, 2, 512]⟩ : Shape).ReducesTo [1] ⟨2, ![16384, 512]⟩)
    (x : (⟨3, ![16384, 2, 512]⟩ : Shape).Idx → EReal) (init : EReal) (b : Fin 16384) (c : Fin 512) :
    Ideal.hostReduceAdd h' x init (ix2 b c) = init + ∑ k : Fin 2, x (ix3 b k c) := by
  have h : (⟨3, ![16384, 2, 512]⟩ : Shape).Reduces [1] ⟨2, ![16384, 512]⟩ := by decide
  rw [Ideal.hostReduceAdd_single h' h]
  refine congrArg (init + ·) (Finset.sum_congr rfl fun k _ => congrArg x (funext fun a => ?_))
  match a with
  | ⟨0, _⟩ => rfl
  | ⟨1, _⟩ => rfl
  | ⟨2, _⟩ => rfl

end Cert.Moe

end
-- ==== Proof.LibArgsort.lean ====
/-
  The argsort table of a stable two-operand sort, and the argsort of an argsort.

  jax's `argsort` of a flat table of keys prints as one stable sort of two operands, the keys and the table
  `0, 1, …, n − 1`, ordered by signed `<` on the keys alone; its second result is the argsort table.  This
  module proves, for a table of `n ≤ 2^31` keys (and then at the size `n = 32768`), with no program imported:

  * the argsort table is a PERMUTATION table: its word at sorted position `p` is the natural number `σ p`, for a
    permutation `σ` of the positions (`perm`; `argsort_apply`);
  * the argsort of that table is the table of the INVERSE permutation: its word at position `i` is `σ⁻¹ i`
    (`argsort_argsort_apply`).

  The second fact: the words `σ p` are pairwise distinct and non-negative as signed words, so signed `<` on them
  is `<` on the naturals `σ p`, a strict total order on the positions; a stable sort leaves no inversion, so with
  `τ` the sorting permutation of the table `σ`, the map `p ↦ σ (τ p)` is strictly increasing from a finite
  linear order to itself, hence the identity, and `τ = σ⁻¹`.
-/
import Idealize.ShloMosaic.Lib.SortFacts
import Idealize.ShloMosaic.Lib.ValueIdx
import Mathlib.Order.Preorder.Finite

noncomputable section

namespace Cert.Moe

open Idealize.ShloMosaic Idealize.ShloMosaic.ValueIdx

/-- The comparator of an argsort: signed `<` on the keys, the carried positions ignored. -/
def keyLt : BitVec 32 × BitVec 32 → BitVec 32 × BitVec 32 → BitVec 1 := fun l r => IntOp.cmpi .slt l.1 r.1

/-- The two ways of writing the rank-1 index at coordinate `k` agree. -/
theorem ofFin_eq_ix1 {n : Nat} (k : Fin n) : Shape.Idx.ofFin k = ix1 k := by
  funext d
  match d with
  | ⟨0, _⟩ => rfl

/-! ## At any size -/

section AnySize
variable {n : Nat}

/-- "The key at position `k` is (signed) less than the key at position `k'`". -/
def keyBefore (keys : IVec ⟨1, ![n]⟩ 32) (k k' : Fin n) : Bool :=
  IntOp.cmpi .slt (keys (Shape.Idx.ofFin k)) (keys (Shape.Idx.ofFin k')) == 1#1

/-- The source position of sorted position `p` under the stable sort by the keys. -/
def srcOf (keys : IVec ⟨1, ![n]⟩ 32) : Fin n → Fin n := sortedFrom (keyBefore keys)

/-- The second result of the stable sort of (keys, iota) by the keys, read at an index: the source position. -/
theorem sort2_iota_snd (keys : IVec ⟨1, ![n]⟩ 32) (j : (⟨1, ![n]⟩ : Shape).Idx) :
    (Host.sort2 ⟨1, ![n]⟩ 0 keyLt keys (iotaInDim ⟨1, ![n]⟩ 32 0)).2 j = BitVec.ofNat 32 (srcOf keys (j 0)).val := by
  unfold Host.sort2
  simp [iotaInDim, srcOf, keyLt]
  rfl

/-- The sorting permutation: sorted position `p` holds source position `permN keys p`. -/
def permN (keys : IVec ⟨1, ![n]⟩ 32) : Equiv.Perm (Fin n) :=
  Equiv.ofBijective (srcOf keys) ⟨sortedFrom_injective _, sortedFrom_surjective _⟩

theorem permN_apply (keys : IVec ⟨1, ![n]⟩ 32) (p : Fin n) : permN keys p = srcOf keys p := rfl

/-- A natural below `2^31` is its word read as a signed integer. -/
theorem toInt_ofNat_of_lt (a : Nat) (ha : a < 2 ^ 31) : (BitVec.ofNat 32 a).toInt = (a : Int) := by
  have h : (BitVec.ofNat 32 a).toNat = a := by
    rw [BitVec.toNat_ofNat]; exact Nat.mod_eq_of_lt (by omega)
  rw [BitVec.toInt_eq_toNat_of_lt (by rw [h]; omega), h]

/-- The comparison bit "is 1" is the signed comparison. -/
theorem cmpi_slt_beq_one (x y : BitVec 32) : (IntOp.cmpi .slt x y == 1#1) = x.slt y := by
  show (BitVec.ofBool (x.slt y) == 1#1) = x.slt y
  cases x.slt y <;> rfl

/-- Signed `<` on the words of two naturals below `2^31` is `<` on the naturals. -/
theorem cmpi_slt_ofNat (a b : Nat) (ha : a < 2 ^ 31) (hb : b < 2 ^ 31) :
    (IntOp.cmpi .slt (BitVec.ofNat 32 a) (BitVec.ofNat 32 b) == 1#1) = decide (a < b) := by
  rw [cmpi_slt_beq_one, BitVec.slt_eq_decide, toInt_ofNat_of_lt a ha, toInt_ofNat_of_lt b hb]
  simp

/-- The table of a permutation's values, as words. -/
def permTable (σ : Fin n → Fin n) : IVec ⟨1, ![n]⟩ 32 := fun j => BitVec.ofNat 32 (σ (j 0)).val

/-- Sorting the table of a permutation `σ` of fewer than `2^31` positions: the sorting permutation `τ` undoes
    `σ`.  (No inversion remains, so `σ ∘ τ` is strictly increasing, hence the identity.) -/
theorem perm_permTable (hn : n ≤ 2 ^ 31) (σ : Equiv.Perm (Fin n)) (p : Fin n) :
    σ (permN (permTable σ) p) = p := by
  set τ := permN (permTable σ) with hτ
  have hB : ∀ k k' : Fin n, keyBefore (permTable σ) k k' = decide ((σ k).val < (σ k').val) := by
    intro k k'
    unfold keyBefore permTable
    simp only [Shape.Idx.ofFin_zero]
    exact cmpi_slt_ofNat _ _ (by have := (σ k).isLt; omega) (by have := (σ k').isLt; omega)
  have hmono : StrictMono fun q : Fin n => σ (τ q) := by
    intro i j hij
    have h := sortedFrom_noInversion (keyBefore (permTable σ)) (keyBefore (permTable σ))
      (fun a b h => by rw [hB] at h ⊢; simp only [decide_eq_true_eq, decide_eq_false_iff_not] at h ⊢; omega)
      (fun _ _ h => h)
      (fun a b c h₁ h₂ => by
        rw [hB] at h₁ h₂ ⊢; simp only [decide_eq_false_iff_not] at h₁ h₂ ⊢; omega) i j hij
    rw [hB] at h
    simp only [decide_eq_false_iff_not, not_lt] at h
    have hle : σ (τ i) ≤ σ (τ j) := h
    have hne : σ (τ i) ≠ σ (τ j) := fun e => (ne_of_lt hij) (τ.injective (σ.injective e))
    exact lt_of_le_of_ne hle hne
  exact congrFun hmono.eq_id p

/-- The table of a permutation read at a coordinate. -/
theorem permTable_ix1 (σ : Fin n → Fin n) (p : Fin n) : permTable σ (ix1 p) = BitVec.ofNat 32 (σ p).val := rfl

/-- The second result of the stable sort of (keys, iota) by the keys is the table of the sorting permutation. -/
theorem sort2_iota_snd_eq (keys : IVec ⟨1, ![n]⟩ 32) :
    (Host.sort2 ⟨1, ![n]⟩ 0 keyLt keys (iotaInDim ⟨1, ![n]⟩ 32 0)).2 = permTable (permN keys) := by
  funext j
  rw [sort2_iota_snd]
  rfl

/-- The sorting permutation of the table of a permutation `σ` of at most `2^31` positions is `σ⁻¹`. -/
theorem permN_permTable (hn : n ≤ 2 ^ 31) (σ : Equiv.Perm (Fin n)) : permN (permTable σ) = σ.symm :=
  Equiv.ext fun p => (Equiv.eq_symm_apply σ).mpr (perm_permTable hn σ p)

end AnySize

/-! ## At 32768 positions -/

/-- The flat shape of 32768 positions. -/
abbrev SN : Shape := ⟨1, ![32768]⟩

/-- jax's `argsort` of a flat table of 32768 keys: the second result of the stable sort of (keys, iota) by the keys. -/
def argsort (keys : IVec SN 32) : IVec SN 32 := (Host.sort2 SN 0 keyLt keys (iotaInDim SN 32 0)).2

/-- The sorting permutation of 32768 keys: sorted position `p` holds source position `perm keys p`. -/
def perm (keys : IVec SN 32) : Equiv.Perm (Fin 32768) := permN keys

set_option maxHeartbeats 50000 in
/-- The argsort table is the table of the sorting permutation. -/
theorem argsort_eq (keys : IVec SN 32) : argsort keys = permTable (perm keys) := sort2_iota_snd_eq keys

set_option maxHeartbeats 50000 in
/-- The sorting permutation of an argsort table is the inverse of the keys' sorting permutation. -/
theorem perm_argsort (keys : IVec SN 32) : perm (argsort keys) = (perm keys).symm := by
  rw [argsort_eq keys]
  exact permN_permTable (by norm_num) (perm keys)

set_option maxHeartbeats 50000 in
/-- The argsort table at sorted position `p` is the word of the source position `perm keys p`. -/
theorem argsort_apply (keys : IVec SN 32) (p : Fin 32768) : argsort keys (ix1 p) = BitVec.ofNat 32 (perm keys p).val := by
  rw [argsort_eq keys, permTable_ix1]

set_option maxHeartbeats 50000 in
/-- The argsort of the argsort table is the table of the inverse permutation. -/
theorem argsort_argsort_apply (keys : IVec SN 32) (i : Fin 32768) :
    argsort (argsort keys) (ix1 i) = BitVec.ofNat 32 ((perm keys).symm i).val := by
  rw [argsort_apply (argsort keys) i, perm_argsort keys]

attribute [irreducible] perm

end Cert.Moe

end
-- ==== Proof.LibIndexWords.lean ====
/-
  Small facts about 32-bit index words, for a natural number `v` below `2^31` written as the word `BitVec.ofNat 32 v`.
  No program is imported.

  * `wrap_word`: the "wrap a negative index" select (`if x < 0 then x + n else x`, signed) leaves such a word alone.
  * `clamp_word`: reading such a word signed and clamping it into `[0, N − 1]` gives `v` back when `v < N ≤ 2^31`.
  * `floorDiv2_word`: the chain jax prints for the floor division `x // 2` of signed integers — the quotient rounded
    toward zero, minus one where the signs of dividend and divisor differ and the remainder is not zero — is, on such
    a word, the word of `v / 2`.  `floorDiv2_apply` is the same chain of vector operations read at one index of any
    shape (the divisor and the constants `0`, `1` broadcast from rank-0 tables), and `tokTable_apply` the closed
    term over the table `0, 1, …, 32767`: its entry `i` is the word of `i / 2`.
  * `iotaInDim_ix1`: the rank-1 iota table at coordinate `i` is the word of `i`.
-/
import Idealize.ShloMosaic.PureOps
import Idealize.ShloMosaic.Lib.ValueIdx

noncomputable section

namespace Cert.Moe

open Idealize.ShloMosaic Idealize.ShloMosaic.ValueIdx

/-! ## The word of a natural below `2^31` -/

/-- Its unsigned value is the natural. -/
theorem idxWord_toNat (v : Nat) (hv : v < 2 ^ 31) : (BitVec.ofNat 32 v).toNat = v := by
  rw [BitVec.toNat_ofNat]; exact Nat.mod_eq_of_lt (by omega)

/-- Its sign bit is clear. -/
theorem idxWord_msb (v : Nat) (hv : v < 2 ^ 31) : (BitVec.ofNat 32 v).msb = false :=
  BitVec.msb_eq_false_iff_two_mul_lt.mpr (by rw [idxWord_toNat v hv]; omega)

/-- Its signed value is the natural. -/
theorem idxWord_toInt (v : Nat) (hv : v < 2 ^ 31) : (BitVec.ofNat 32 v).toInt = (v : Int) := by
  rw [BitVec.toInt_eq_toNat_of_lt (by rw [idxWord_toNat v hv]; omega), idxWord_toNat v hv]

/-- It is the zero word only for `v = 0`. -/
theorem idxWord_ne_zero (v : Nat) (hv : v < 2 ^ 31) (h0 : v ≠ 0) : BitVec.ofNat 32 v ≠ 0 := by
  intro h
  have := congrArg BitVec.toNat h
  rw [idxWord_toNat v hv] at this
  exact h0 this

/-! ## Wrapping and clamping -/

/-- The wrap of a possibly negative index, `if x < 0 then x + n else x` (signed), leaves a non-negative word alone. -/
theorem wrap_word (n : BitVec 32) (v : Nat) (hv : v < 2 ^ 31) :
    Scalar.select (IntOp.cmpi .slt (BitVec.ofNat 32 v) 0#32) (IntOp.addi (BitVec.ofNat 32 v) n) (BitVec.ofNat 32 v)
      = BitVec.ofNat 32 v := by
  have h : IntOp.cmpi .slt (BitVec.ofNat 32 v) 0#32 = 0#1 := by
    show BitVec.ofBool ((BitVec.ofNat 32 v).slt 0#32) = 0#1
    have hlt : ¬ ((v : Int) < 0) := by omega
    rw [BitVec.slt_eq_decide, idxWord_toInt v hv, BitVec.toInt_zero, decide_eq_false hlt]
    rfl
  rw [h, select_zero]

/-- A word below `N ≤ 2^31`, read signed and clamped into `[0, N − 1]`, is its natural. -/
theorem clamp_word (v N : Nat) (hv : v < N) (hN : N ≤ 2 ^ 31) : min (BitVec.ofNat 32 v).toInt.toNat (N - 1) = v := by
  rw [idxWord_toInt v (by omega), Int.toNat_natCast]
  omega

/-! ## Floor division by two -/

/-- The sign of a word as a word (`-1`, `0` or `1`): what `signi` computes at each index. -/
def signWord {w : Nat} (x : BitVec w) : BitVec w := if x = 0 then 0 else if x.msb then -1 else 1

/-- `signi` at an index is the sign of the element. -/
theorem signi_apply {s : Shape} {w : Nat} (x : IVec s w) (i : s.Idx) : signi x i = signWord (x i) := rfl

/-- The sign of the word of a positive natural below `2^31` is `1`. -/
theorem signWord_pos (v : Nat) (hv : v < 2 ^ 31) (h0 : v ≠ 0) : signWord (BitVec.ofNat 32 v) = 1 := by
  unfold signWord
  rw [if_neg (idxWord_ne_zero v hv h0), idxWord_msb v hv]
  rfl

/-- Dividing by the word `2` is not a corner of signed division. -/
theorem not_sdivCorner_two (x : BitVec 32) : ¬ IntOp.SDivCorner x 2#32 := by
  unfold IntOp.SDivCorner
  rintro (h | ⟨_, h⟩)
  · exact idxWord_ne_zero 2 (by norm_num) (by norm_num) h
  · have := congrArg BitVec.toNat h
    simp at this

/-- The signed quotient by `2` of the word of `v` is the word of `v / 2`. -/
theorem divsi_two (u : ArithUnit) (v : Nat) (hv : v < 2 ^ 31) :
    IntOp.divsi u (BitVec.ofNat 32 v) 2#32 = BitVec.ofNat 32 (v / 2) := by
  unfold IntOp.divsi
  rw [if_neg (not_sdivCorner_two _), BitVec.sdiv_eq, idxWord_msb v hv, idxWord_msb 2 (by norm_num)]
  show (BitVec.ofNat 32 v) / 2#32 = _
  apply BitVec.eq_of_toNat_eq
  rw [BitVec.toNat_udiv, idxWord_toNat v hv, idxWord_toNat 2 (by norm_num), idxWord_toNat (v / 2) (by omega)]

/-- The signed remainder by `2` of the zero word is the zero word. -/
theorem remsi_zero_two (u : ArithUnit) : IntOp.remsi u (0#32) 2#32 = 0#32 := by
  unfold IntOp.remsi
  rw [if_neg (not_sdivCorner_two _), BitVec.zero_srem]

/-- jax's floor division by two on the word of a natural `v < 2^31`: the quotient rounded toward zero, less one
    where the signs of `x` and `2` differ and the remainder is not zero, is the word of `v / 2`.  (For `v > 0` the
    signs agree; for `v = 0` the remainder is zero: the correction never applies.) -/
theorem floorDiv2_word (u : ArithUnit) (v : Nat) (hv : v < 2 ^ 31) :
    Scalar.select
        (IntOp.andi (IntOp.cmpi .ne (signWord (BitVec.ofNat 32 v)) (signWord 2#32))
          (IntOp.cmpi .ne (IntOp.remsi u (BitVec.ofNat 32 v) 2#32) 0#32))
        (IntOp.subi (IntOp.divsi u (BitVec.ofNat 32 v) 2#32) 1#32)
        (IntOp.divsi u (BitVec.ofNat 32 v) 2#32)
      = BitVec.ofNat 32 (v / 2) := by
  have hc : IntOp.andi (IntOp.cmpi .ne (signWord (BitVec.ofNat 32 v)) (signWord 2#32))
      (IntOp.cmpi .ne (IntOp.remsi u (BitVec.ofNat 32 v) 2#32) 0#32) = 0#1 := by
    by_cases h0 : v = 0
    · subst h0
      have : IntOp.cmpi .ne (IntOp.remsi u (BitVec.ofNat 32 0) 2#32) 0#32 = 0#1 := by
        rw [show BitVec.ofNat 32 0 = 0#32 from rfl, remsi_zero_two]
        rfl
      rw [this]
      exact BitVec.and_zero
    · have : IntOp.cmpi .ne (signWord (BitVec.ofNat 32 v)) (signWord 2#32) = 0#1 := by
        rw [signWord_pos v hv h0, signWord_pos 2 (by norm_num) (by norm_num)]
        rfl
      rw [this]
      exact BitVec.zero_and
  rw [hc, select_zero, divsi_two u v hv]

/-! ## The same chain of vector operations, read at an index -/

/-- The rank-1 iota table at coordinate `i` is the word of `i`. -/
theorem iotaInDim_ix1 {n : Nat} (w : Nat) (i : Fin n) : iotaInDim ⟨1, ![n]⟩ w 0 (ix1 i) = BitVec.ofNat w i.val := rfl

/-- A rank-0 constant table broadcast to any shape reads the constant everywhere. -/
theorem broadcastInDim_constantI {t : Shape} (dims : Fin (⟨0, ![]⟩ : Shape).rank → Fin t.rank)
    (hb : (⟨0, ![]⟩ : Shape).BroadcastsInDim t dims) (w : Nat) (b : BitVec w) (j : t.Idx) :
    broadcastInDim t dims hb (constantI ⟨0, ![]⟩ w b) j = b := rfl

/-- The floor-division-by-two chain over any table `x`, the divisor `2` and the constants `0`, `1` being rank-0
    constant tables broadcast to the shape, read at an index where `x` holds the word of a natural `v < 2^31`. -/
theorem floorDiv2_apply {t : Shape} (dims : Fin (⟨0, ![]⟩ : Shape).rank → Fin t.rank)
    (hb : (⟨0, ![]⟩ : Shape).BroadcastsInDim t dims) (x : IVec t 32) (j : t.Idx) (v : Nat) (hv : v < 2 ^ 31)
    (hx : x j = BitVec.ofNat 32 v) :
    select
        (andi (cmpi .ne (signi x) (broadcastInDim t dims hb (signi (constantI ⟨0, ![]⟩ 32 2#32))))
          (cmpi .ne (Host.remsi x (broadcastInDim t dims hb (constantI ⟨0, ![]⟩ 32 2#32)))
            (broadcastInDim t dims hb (constantI ⟨0, ![]⟩ 32 0#32))))
        (subi (Host.divsi x (broadcastInDim t dims hb (constantI ⟨0, ![]⟩ 32 2#32)))
          (broadcastInDim t dims hb (constantI ⟨0, ![]⟩ 32 1#32)))
        (Host.divsi x (broadcastInDim t dims hb (constantI ⟨0, ![]⟩ 32 2#32))) j
      = BitVec.ofNat 32 (v / 2) := by
  show Scalar.select
        (IntOp.andi (IntOp.cmpi .ne (signWord (x j)) (signWord 2#32))
          (IntOp.cmpi .ne (IntOp.remsi .host (x j) 2#32) 0#32))
        (IntOp.subi (IntOp.divsi .host (x j) 2#32) 1#32)
        (IntOp.divsi .host (x j) 2#32) = _
  rw [hx]
  exact floorDiv2_word .host v hv

/-- The table jax prints for `iota // 2` over 32768 positions: entry `i` is the word of `i / 2`. -/
theorem tokTable_apply (hb : (⟨0, ![]⟩ : Shape).BroadcastsInDim ⟨1, ![32768]⟩ ![]) (i : Fin 32768) :
    select
        (andi (cmpi .ne (signi (iotaInDim ⟨1, ![32768]⟩ 32 0))
            (broadcastInDim ⟨1, ![32768]⟩ ![] hb (signi (constantI ⟨0, ![]⟩ 32 2#32))))
          (cmpi .ne (Host.remsi (iotaInDim ⟨1, ![32768]⟩ 32 0) (broadcastInDim ⟨1, ![32768]⟩ ![] hb (constantI ⟨0, ![]⟩ 32 2#32)))
            (broadcastInDim ⟨1, ![32768]⟩ ![] hb (constantI ⟨0, ![]⟩ 32 0#32))))
        (subi (Host.divsi (iotaInDim ⟨1, ![32768]⟩ 32 0) (broadcastInDim ⟨1, ![32768]⟩ ![] hb (constantI ⟨0, ![]⟩ 32 2#32)))
          (broadcastInDim ⟨1, ![32768]⟩ ![] hb (constantI ⟨0, ![]⟩ 32 1#32)))
        (Host.divsi (iotaInDim ⟨1, ![32768]⟩ 32 0) (broadcastInDim ⟨1, ![32768]⟩ ![] hb (constantI ⟨0, ![]⟩ 32 2#32)))
        (ix1 i)
      = BitVec.ofNat 32 (i.val / 2) :=
  floorDiv2_apply ![] hb (iotaInDim ⟨1, ![32768]⟩ 32 0) (ix1 i) i.val (by have := i.isLt; omega) (iotaInDim_ix1 32 i)

end Cert.Moe

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.MoeIndex.lean ====
/-
  The index arithmetic both programs share, with no program imported: a table of indices wrapped (a negative index
  moved up by the table's length) and stood up as a column, the gathers that read through such a column, and the
  chains built from them on the argsort of the expert ids.

  With `σ` the sorting permutation of the keys (sorted position `p` holds assignment `σ p`):
  * the token table `i ↦ i / 2` gathered at the argsort gives, at `p`, the token of `σ p` (`sorted_token`), and any
    table gathered there gives its entry `σ p` (`sorted_weight`);
  * the rows of a `[16384, 512]` table gathered at those tokens give, at `(p, k)`, row `token (σ p)` (`sorted_row`);
  * the rows of a `[32768, 512]` table gathered at the argsort of the argsort give, at `(i, h)`, row `σ⁻¹ i`
    (`unsorted_row`).
  Every index met is a natural below the table's length, so the wrap leaves it alone and the gather's clamp too.
-/
import proofs.«172712_j63668595196398_2_alg».proof.Proof.MoeLayout
import proofs.«172712_j63668595196398_2_alg».proof.Proof.LibArgsort
import proofs.«172712_j63668595196398_2_alg».proof.Proof.LibIndexWords
import proofs.«172712_j63668595196398_2_alg».proof.Proof.LibGatherRows

noncomputable section

namespace Cert.Moe

open Idealize.ShloMosaic Idealize.ShloMosaic.ValueIdx

/-- A table of 32768 index words, wrapped (`if x < 0 then x + n else x`, signed) and stood up as a column. -/
def wrapCol (hb0 : (⟨0, ![]⟩ : Shape).BroadcastsInDim ⟨1, ![32768]⟩ ![])
    (hbc : (⟨1, ![32768]⟩ : Shape).BroadcastsInDim ⟨2, ![32768, 1]⟩ ![0]) (n : BitVec 32) (x : IVec SN 32) :
    IVec ⟨2, ![32768, 1]⟩ 32 :=
  broadcastInDim ⟨2, ![32768, 1]⟩ ![0] hbc
    (select (cmpi .slt x (broadcastInDim SN ![] hb0 (constantI ⟨0, ![]⟩ 32 0#32)))
      (addi x (broadcastInDim SN ![] hb0 (constantI ⟨0, ![]⟩ 32 n))) x)

section

/-- Where the table holds the word of a natural below `2^31`, the wrapped column holds the same word. -/
theorem wrapCol_apply (hb0 : (⟨0, ![]⟩ : Shape).BroadcastsInDim ⟨1, ![32768]⟩ ![])
    (hbc : (⟨1, ![32768]⟩ : Shape).BroadcastsInDim ⟨2, ![32768, 1]⟩ ![0])
    (n : BitVec 32) (x : IVec SN 32) (p : Fin 32768) (v : Nat) (hv : v < 2 ^ 31)
    (hx : x (ix1 p) = BitVec.ofNat 32 v) : wrapCol hb0 hbc n x (ix2 p 0) = BitVec.ofNat 32 v := by
  unfold wrapCol
  rw [column_apply]
  show Scalar.select (IntOp.cmpi .slt (x (ix1 p)) 0#32) (IntOp.addi (x (ix1 p)) n) (x (ix1 p)) = _
  rw [hx]
  exact wrap_word n v hv

variable {α : Type}

/-- A flat table gathered through a wrapped column of in-range indices: entry `p` is the table at the index. -/
theorem gather_flat_wrapped
    (wf : GatherDims.WF ⟨1, ![32768]⟩ ⟨2, ![32768, 1]⟩ ⟨1, ![32768]⟩ [] [0] [] [0] [] 1 ![1])
    (hb0 : (⟨0, ![]⟩ : Shape).BroadcastsInDim ⟨1, ![32768]⟩ ![])
    (hbc : (⟨1, ![32768]⟩ : Shape).BroadcastsInDim ⟨2, ![32768, 1]⟩ ![0])
    (n : BitVec 32) (T : SN.Idx → α) (x : IVec SN 32) (p : Fin 32768) (v : Fin 32768)
    (hx : x (ix1 p) = BitVec.ofNat 32 v.val) :
    Host.gather (flatDims 32768 32768 wf) T (wrapCol hb0 hbc n x) (ix1 p) = T (ix1 v) := by
  rw [gather_flat_apply (by norm_num) wf T _ p]
  refine congrArg T (congrArg (fun r : Fin 32768 => ix1 r) (Fin.ext ?_))
  show min (wrapCol hb0 hbc n x (ix2 p 0)).toInt.toNat (32768 - 1) = v.val
  rw [wrapCol_apply hb0 hbc n x p v.val (by have := v.isLt; omega) hx]
  exact clamp_word v.val 32768 v.isLt (by norm_num)

/-- The rows of a table gathered through a wrapped column of in-range indices: row `p` is the table's row at the
    index. -/
theorem gather_rows_wrapped {A : Nat} (hA : A ≤ 2 ^ 31)
    (wf : GatherDims.WF ⟨2, ![A, 512]⟩ ⟨2, ![32768, 1]⟩ ⟨2, ![32768, 512]⟩ [1] [0] [] [0] [] 1 ![1, 512])
    (hb0 : (⟨0, ![]⟩ : Shape).BroadcastsInDim ⟨1, ![32768]⟩ ![])
    (hbc : (⟨1, ![32768]⟩ : Shape).BroadcastsInDim ⟨2, ![32768, 1]⟩ ![0])
    (n : BitVec 32) (X : (⟨2, ![A, 512]⟩ : Shape).Idx → α) (x : IVec SN 32) (p : Fin 32768) (k : Fin 512) (v : Fin A)
    (hx : x (ix1 p) = BitVec.ofNat 32 v.val) :
    Host.gather (rowDims A 512 32768 wf) X (wrapCol hb0 hbc n x) (ix2 p k) = X (ix2 v k) := by
  rw [gather_rows_apply (lt_of_le_of_lt (Nat.zero_le _) v.isLt) wf X _ p k]
  refine congrArg X (congrArg (fun r : Fin A => ix2 r k) (Fin.ext ?_))
  show min (wrapCol hb0 hbc n x (ix2 p 0)).toInt.toNat (A - 1) = v.val
  rw [wrapCol_apply hb0 hbc n x p v.val (by have := v.isLt; omega) hx]
  exact clamp_word v.val A v.isLt hA

/-! ## The chains on the argsort of the keys -/

set_option maxHeartbeats 50000 in
/-- Any table gathered at the argsort: entry `p` is the table at the assignment sorted position `p` holds. -/
theorem sorted_weight
    (wf1 : GatherDims.WF ⟨1, ![32768]⟩ ⟨2, ![32768, 1]⟩ ⟨1, ![32768]⟩ [] [0] [] [0] [] 1 ![1])
    (hb0 : (⟨0, ![]⟩ : Shape).BroadcastsInDim ⟨1, ![32768]⟩ ![])
    (hbc : (⟨1, ![32768]⟩ : Shape).BroadcastsInDim ⟨2, ![32768, 1]⟩ ![0])
    (v : SN.Idx → α) (keys : IVec SN 32) (p : Fin 32768) :
    Host.gather (flatDims 32768 32768 wf1) v (wrapCol hb0 hbc 32768#32 (argsort keys)) (ix1 p)
      = v (ix1 (perm keys p)) :=
  gather_flat_wrapped wf1 hb0 hbc 32768#32 v (argsort keys) p (perm keys p) (argsort_apply keys p)

set_option maxHeartbeats 50000 in
/-- The token table gathered at the argsort: entry `p` is the token of the assignment sorted position `p` holds. -/
theorem sorted_token
    (wf1 : GatherDims.WF ⟨1, ![32768]⟩ ⟨2, ![32768, 1]⟩ ⟨1, ![32768]⟩ [] [0] [] [0] [] 1 ![1])
    (hb0 : (⟨0, ![]⟩ : Shape).BroadcastsInDim ⟨1, ![32768]⟩ ![])
    (hbc : (⟨1, ![32768]⟩ : Shape).BroadcastsInDim ⟨2, ![32768, 1]⟩ ![0])
    (T : IVec SN 32) (hT : ∀ i : Fin 32768, T (ix1 i) = BitVec.ofNat 32 (i.val / 2)) (keys : IVec SN 32) (p : Fin 32768) :
    Host.gather (flatDims 32768 32768 wf1) T (wrapCol hb0 hbc 32768#32 (argsort keys)) (ix1 p)
      = BitVec.ofNat 32 (tokOf (perm keys p)).val := by
  rw [sorted_weight wf1 hb0 hbc T keys p, hT]
  rfl

set_option maxHeartbeats 50000 in
/-- The same table, wrapped again and stood up as a column. -/
theorem sorted_token_col
    (wf1 : GatherDims.WF ⟨1, ![32768]⟩ ⟨2, ![32768, 1]⟩ ⟨1, ![32768]⟩ [] [0] [] [0] [] 1 ![1])
    (hb0 : (⟨0, ![]⟩ : Shape).BroadcastsInDim ⟨1, ![32768]⟩ ![])
    (hbc : (⟨1, ![32768]⟩ : Shape).BroadcastsInDim ⟨2, ![32768, 1]⟩ ![0])
    (T : IVec SN 32) (hT : ∀ i : Fin 32768, T (ix1 i) = BitVec.ofNat 32 (i.val / 2)) (keys : IVec SN 32) (p : Fin 32768) :
    wrapCol hb0 hbc 16384#32
        (Host.gather (flatDims 32768 32768 wf1) T (wrapCol hb0 hbc 32768#32 (argsort keys))) (ix2 p 0)
      = BitVec.ofNat 32 (tokOf (perm keys p)).val :=
  wrapCol_apply hb0 hbc 16384#32 _ p (tokOf (perm keys p)).val (by have := (tokOf (perm keys p)).isLt; omega)
    (sorted_token wf1 hb0 hbc T hT keys p)

set_option maxHeartbeats 50000 in
/-- The rows of a per-token table gathered at those tokens: row `p` is the row of the token of the assignment sorted
    position `p` holds. -/
theorem sorted_row
    (wf1 : GatherDims.WF ⟨1, ![32768]⟩ ⟨2, ![32768, 1]⟩ ⟨1, ![32768]⟩ [] [0] [] [0] [] 1 ![1])
    (wf2 : GatherDims.WF ⟨2, ![16384, 512]⟩ ⟨2, ![32768, 1]⟩ ⟨2, ![32768, 512]⟩ [1] [0] [] [0] [] 1 ![1, 512])
    (hb0 : (⟨0, ![]⟩ : Shape).BroadcastsInDim ⟨1, ![32768]⟩ ![])
    (hbc : (⟨1, ![32768]⟩ : Shape).BroadcastsInDim ⟨2, ![32768, 1]⟩ ![0])
    (T : IVec SN 32) (hT : ∀ i : Fin 32768, T (ix1 i) = BitVec.ofNat 32 (i.val / 2))
    (X : (⟨2, ![16384, 512]⟩ : Shape).Idx → α) (keys : IVec SN 32) (p : Fin 32768) (k : Fin 512) :
    Host.gather (rowDims 16384 512 32768 wf2) X
        (wrapCol hb0 hbc 16384#32
          (Host.gather (flatDims 32768 32768 wf1) T (wrapCol hb0 hbc 32768#32 (argsort keys)))) (ix2 p k)
      = X (ix2 (tokOf (perm keys p)) k) :=
  gather_rows_wrapped (by norm_num) wf2 hb0 hbc 16384#32 X _ p k (tokOf (perm keys p))
    (sorted_token wf1 hb0 hbc T hT keys p)

set_option maxHeartbeats 50000 in
/-- The rows of a per-position table gathered at the argsort of the argsort: row `i` is the row of the sorted
    position that holds assignment `i`. -/
theorem unsorted_row
    (wf3 : GatherDims.WF ⟨2, ![32768, 512]⟩ ⟨2, ![32768, 1]⟩ ⟨2, ![32768, 512]⟩ [1] [0] [] [0] [] 1 ![1, 512])
    (hb0 : (⟨0, ![]⟩ : Shape).BroadcastsInDim ⟨1, ![32768]⟩ ![])
    (hbc : (⟨1, ![32768]⟩ : Shape).BroadcastsInDim ⟨2, ![32768, 1]⟩ ![0])
    (R : (⟨2, ![32768, 512]⟩ : Shape).Idx → α) (keys : IVec SN 32) (i : Fin 32768) (h : Fin 512) :
    Host.gather (rowDims 32768 512 32768 wf3) R (wrapCol hb0 hbc 32768#32 (argsort (argsort keys))) (ix2 i h)
      = R (ix2 ((perm keys).symm i) h) :=
  gather_rows_wrapped (by norm_num) wf3 hb0 hbc 32768#32 R (argsort (argsort keys)) i h ((perm keys).symm i)
    (argsort_argsort_apply keys i)

end

end Cert.Moe

end
-- ==== Proof.KernelValue.lean ====
/-
  The idealized kernel program's result, index by index, is the layer's output `Cert.Moe.out`.

  The sorting table read at sorted position `p` is the word of `σ p`, `σ` the sorting permutation of the flattened expert
  ids, and its own sorting table read at assignment `i` is the word of `σ⁻¹ i`.  So the region's first window holds, at
  row `r` of expert `e`, the hidden-state row of the token of assignment `σ (512 e + r)`; the region leaves each row's
  feed-forward output; and the lines after it fetch, for slot `k` of token `b`, the row at `σ⁻¹ (2 b + k)`, scale it by
  that assignment's weight, and add the two slots to the start value.
-/
import proofs.«172712_j63668595196398_2_alg».proof.Proof.KernelHost
import proofs.«172712_j63668595196398_2_alg».proof.Proof.KernelBlocks
import proofs.«172712_j63668595196398_2_alg».proof.Proof.MoeIndex

set_option maxRecDepth 16384

noncomputable section

namespace Cert.KernelIdeal.KernelValue

open Cert.KernelIdeal Cert.KernelIdeal.Gen Cert.KernelIdeal.HostValue Idealize.ShloMosaic Idealize.ShloMosaic.TcCoe
  Idealize.SL.Sem Idealize.ShloMosaic.ValueIdx
open Cert (Moe.tokOf Moe.slotOf Moe.asg Moe.expertOf Moe.rowOf Moe.posOf)

/-- The sorting permutation of the flattened expert ids: sorted position `p` holds assignment `σ p`. -/
def σ (a2 : IVec S16384x2 32) : Equiv.Perm (Fin 32768) := Cert.Moe.perm (flatIds a2)

/-! ## The program's spelling is the shared one -/

theorem order_eq (a2 : IVec S16384x2 32) : order a2 = Cert.Moe.argsort (flatIds a2) := rfl
theorem inv_eq (a2 : IVec S16384x2 32) : inv a2 = Cert.Moe.argsort (Cert.Moe.argsort (flatIds a2)) := rfl
theorem wrapCol_eq (n : BitVec 32) (x : IVec S32768 32) :
    wrapCol n x = Cert.Moe.wrapCol bcast_S_S32768 bcast_S32768_S32768x1_0 n x := rfl

/-- Assignment `i` belongs to token `i / 2`. -/
theorem tokTable_apply (i : Fin 32768) : tokTable (ix1 i) = BitVec.ofNat 32 (i.val / 2) :=
  Cert.Moe.tokTable_apply bcast_S_S32768 i

/-! ## What the region's first window reads -/

/-- Row `r` of expert `e`'s block of the gathered rows is the hidden-state row of the token of assignment
    `σ (512 e + r)`. -/
theorem xg_apply (a0 : FVec Ideal S16384x512 .f32) (a2 : IVec S16384x2 32) (e : Fin 64) (r k : Fin 512) :
    xg a0 a2 (ix3 e r k) = a0 (ix2 (Cert.Moe.tokOf (σ a2 (Cert.Moe.posOf e r))) k) := by
  unfold xg
  rw [Cert.Moe.rows_to_blocks]
  exact Cert.Moe.sorted_row gather_S32768_S32768x1_S32768_n_0_n_n_0_1_1_wf
    gather_S16384x512_S32768x1_S32768x512_1_0_n_n_0_1_1512_wf bcast_S_S32768 bcast_S32768_S32768x1_0 tokTable tokTable_apply
    (truncf .bf16 a0 bitsLt_bf16_f32) (flatIds a2) (Cert.Moe.posOf e r) k

/-! ## The lines after the region -/

/-- The lines after the region at token `b`, column `h`: the start value plus, over the two slots, the region's
    output row at `σ⁻¹` of the assignment times the assignment's flat weight. -/
theorem kout_apply (yg : FVec Ideal S64x512x512 .bf16) (fw : FVec Ideal S32768 .f32) (a2 : IVec S16384x2 32)
    (b : Fin 16384) (h : Fin 512) :
    kout yg fw (inv a2) (ix2 b h)
      = Ideal.ofBits .f32 0x00000000#32
        + ∑ k : Fin 2, yg (ix3 (Cert.Moe.expertOf ((σ a2).symm (Cert.Moe.asg b k))) (Cert.Moe.rowOf ((σ a2).symm (Cert.Moe.asg b k))) h)
            * fw (ix1 (Cert.Moe.asg b k)) := by
  unfold kout
  show Ideal.hostReduceAdd reducesTo_S16384x2x512_S16384x512_d1 _ _ (ix2 b h) = _
  rw [Cert.Moe.slot_sum_apply]
  refine congrArg₂ (· + ·) rfl (Finset.sum_congr rfl fun k _ => ?_)
  rw [Cert.Moe.rows_to_slots]
  show (extf .f32 _ bitsLt_bf16_f32 : FVec Ideal S32768x512 .f32) (ix2 (Cert.Moe.asg b k) h)
      * broadcastInDim S32768x512 ![0, 1] bcast_S32768x1_S32768x512_0_1
          (broadcastInDim S32768x1 ![0] bcast_S32768_S32768x1_0 fw) (ix2 (Cert.Moe.asg b k) h) = _
  rw [Cert.Moe.spread_apply, Cert.Moe.column_apply]
  refine congrArg (· * fw (ix1 (Cert.Moe.asg b k))) ?_
  refine (Cert.Moe.unsorted_row gather_S32768x512_S32768x1_S32768x512_1_0_n_n_0_1_1512_wf bcast_S_S32768
    bcast_S32768_S32768x1_0 (fun i => shapeCast S32768x512 yg shapeCasts_S64x512x512_S32768x512 i) (flatIds a2)
    (Cert.Moe.asg b k) h).trans ?_
  exact Cert.Moe.blocks_to_rows yg shapeCasts_S64x512x512_S32768x512 _ h

/-! ## The result -/

variable (m : (ℓ : Loc nD τ sig) → Buf (Elt Ideal) ℓ)

/-- The program's result at token `b`, column `h`, is the layer's output there. -/
theorem result_apply (c : Dev nD) (b : Fin 16384) (h : Fin 512) :
    kout ((Gen.dats m 0 c).arrAt 3 cfg0.N) (flatW (m ((c.tc : Thread nD τ).loc main_arg1)))
        (inv (m ((c.tc : Thread nD τ).loc main_arg2))) (ix2 b h)
      = Cert.Moe.out (Ideal.ofBits .f32 0x00000000#32) (m ((c.tc : Thread nD τ).loc main_arg0))
          (m ((c.tc : Thread nD τ).loc main_arg1)) (m ((c.tc : Thread nD τ).loc main_arg3))
          (m ((c.tc : Thread nD τ).loc main_arg4)) (σ (m ((c.tc : Thread nD τ).loc main_arg2))) b h := by
  rw [kout_apply, BlockValue.final m c, V_main_v21, Gen.V_main_arg3, Gen.V_main_arg4]
  unfold Cert.Moe.out
  refine congrArg₂ (· + ·) rfl (Finset.sum_congr rfl fun k _ => ?_)
  rw [BlockValue.G_apply]
  unfold flatW
  rw [Cert.Moe.flat_apply, Cert.Moe.tokOf_asg, Cert.Moe.slotOf_asg]
  refine congrArg (· * _) ?_
  unfold Cert.Moe.Y
  refine congrArg (fun x => Cert.Moe.ffn x _ _ h) (funext fun k' => ?_)
  rw [xg_apply, Cert.Moe.posOf_expertOf_rowOf]

end Cert.KernelIdeal.KernelValue

end
-- ==== Proof.RefRun.lean ====
/-
  The reference program's run, read back as mathematics.

  The reference is a straight line of 78 host operations (its four outlined functions, floor division, the
  select inside it, the stable argsort and silu, stand inline at their call sites, over the buffers each call
  names).  This module lists them, shows the printed program is that list run in order, and names what the
  result buffer holds afterwards in stages, each stage the program's own operations applied to earlier stages:

      tokTable   the token of each (token, slot) assignment, assignment q ↦ q / 2           (no arguments)
      order      the stable argsort of the expert ids: sorted position p ↦ the assignment it holds
      orderCol   order, wrapped by 32768 where negative, as a column of gather indices
      tokSorted  the token held by each sorted position
      wSorted    the routing weight held by each sorted position
      tokCol     tokSorted, wrapped by 16384 where negative, as a column of gather / scatter indices
      xg         the hidden-state rows in sorted order, grouped by expert: [64, 512, 512]
      yg         each group through its expert's feed-forward network
      result     the rows of yg, scaled by the sorted weights, scatter-added back onto their tokens.
-/
import proofs.«172712_j63668595196398_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Ops

variable {F : FTy → Type} [FloatOps F]

/-- @main's 78 operations, in order; a called function's operations stand in its call's place, over the
    buffers that call names. -/
abbrev ops : List (HloOp τ sig (Elt F)) :=
  [ reshape main_arg2 main_v0 rfl shapeCasts_S16384x2_S32768,
    reshape main_arg1 main_v1 rfl shapeCasts_S16384x2_S32768,
    nullary main_v2 (iotaInDim S32768 32 0),
    nullary main_c (constantI S_ 32 2#32),
    -- floor division of the iota by 2
    TRef.unary (.of main_c : TRef sig ⟨S_, .i32⟩) main_call0.v0 id,
    TRef.unary main_call0.v0 main_call0.v1 (broadcastInDim S32768 ![] bcast_S_S32768),
    TRef.binary (.of main_v2 : TRef sig ⟨S32768, .i32⟩) main_call0.v1 main_call0.v2 Host.divsi,
    TRef.unary (.of main_v2 : TRef sig ⟨S32768, .i32⟩) main_call0.v3 signi,
    TRef.unary main_call0.v0 main_call0.v4 signi,
    TRef.unary main_call0.v4 main_call0.v5 (broadcastInDim S32768 ![] bcast_S_S32768),
    TRef.binary main_call0.v3 main_call0.v5 main_call0.v6 (cmpi .ne),
    TRef.unary main_call0.v0 main_call0.v7 (broadcastInDim S32768 ![] bcast_S_S32768),
    TRef.binary (.of main_v2 : TRef sig ⟨S32768, .i32⟩) main_call0.v7 main_call0.v8 Host.remsi,
    TRef.nullary main_call0.c (constantI S_ 32 0#32),
    TRef.unary main_call0.c main_call0.v9 (broadcastInDim S32768 ![] bcast_S_S32768),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32768 ![] bcast_S_S32768),
    TRef.binary main_call0.v2 main_call0.v12 main_call0.v13 subi,
    TRef.ternary main_call0.v11 main_call0.v13 main_call0.v2 main_call0.call0.v0 select,
    -- the stable argsort of the expert ids
    TRef.nullary main_call1.v0 (iotaInDim S32768 32 0),
    TRef.binary (.of main_v0 : TRef sig ⟨S32768, .i32⟩) main_call1.v0 main_call1.v1_0 (fun x y => (Host.sort2 S32768 0 comparator_i32_i32_d0 x y).1),
    TRef.binary (.of main_v0 : TRef sig ⟨S32768, .i32⟩) main_call1.v0 main_call1.v1_1 (fun x y => (Host.sort2 S32768 0 comparator_i32_i32_d0 x y).2),
    -- the token of each sorted position
    nullary main_c_0 (constantI S_ 32 0#32),
    unary main_c_0 main_v5 (broadcastInDim S32768 ![] bcast_S_S32768 : (⟨S_, .i32⟩ : BufTy).Contents (Elt F) → (⟨S32768, .i32⟩ : BufTy).Contents (Elt F)),
    binary main_v4 main_v5 main_v6 (cmpi .slt : (⟨S32768, .i32⟩ : BufTy).Contents (Elt F) → (⟨S32768, .i32⟩ : BufTy).Contents (Elt F) → (⟨S32768, .i1⟩ : BufTy).Contents (Elt F)),
    nullary main_c_1 (constantI S_ 32 32768#32),
    unary main_c_1 main_v7 (broadcastInDim S32768 ![] bcast_S_S32768 : (⟨S_, .i32⟩ : BufTy).Contents (Elt F) → (⟨S32768, .i32⟩ : BufTy).Contents (Elt F)),
    binary main_v4 main_v7 main_v8 (addi : (⟨S32768, .i32⟩ : BufTy).Contents (Elt F) → (⟨S32768, .i32⟩ : BufTy).Contents (Elt F) → (⟨S32768, .i32⟩ : BufTy).Contents (Elt F)),
    ternary main_v6 main_v8 main_v4 main_v9 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v9 main_v10 (broadcastInDim S32768x1 ![0] bcast_S32768_S32768x1_0 : (⟨S32768, .i32⟩ : BufTy).Contents (Elt F) → (⟨S32768x1, .i32⟩ : BufTy).Contents (Elt F)),
    binary main_v3 main_v10 main_v11 ((fun x i => Host.gather gather_S32768_S32768x1_S32768_n_0_n_n_0_1_1 x i) : (⟨S32768, .i32⟩ : BufTy).Contents (Elt F) → (⟨S32768x1, .i32⟩ : BufTy).Contents (Elt F) → (⟨S32768, .i32⟩ : BufTy).Contents (Elt F)),
    -- the routing weight of each sorted position
    nullary main_c_2 (constantI S_ 32 0#32),
    unary main_c_2 main_v12 (broadcastInDim S32768 ![] bcast_S_S32768 : (⟨S_, .i32⟩ : BufTy).Contents (Elt F) → (⟨S32768, .i32⟩ : BufTy).Contents (Elt F)),
    binary main_v4 main_v12 main_v13 (cmpi .slt : (⟨S32768, .i32⟩ : BufTy).Contents (Elt F) → (⟨S32768, .i32⟩ : BufTy).Contents (Elt F) → (⟨S32768, .i1⟩ : BufTy).Contents (Elt F)),
    nullary main_c_3 (constantI S_ 32 32768#32),
    unary main_c_3 main_v14 (broadcastInDim S32768 ![] bcast_S_S32768 : (⟨S_, .i32⟩ : BufTy).Contents (Elt F) → (⟨S32768, .i32⟩ : BufTy).Contents (Elt F)),
    binary main_v4 main_v14 main_v15 (addi : (⟨S32768, .i32⟩ : BufTy).Contents (Elt F) → (⟨S32768, .i32⟩ : BufTy).Contents (Elt F) → (⟨S32768, .i32⟩ : BufTy).Contents (Elt F)),
    ternary main_v13 main_v15 main_v4 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v16 main_v17 (broadcastInDim S32768x1 ![0] bcast_S32768_S32768x1_0 : (⟨S32768, .i32⟩ : BufTy).Contents (Elt F) → (⟨S32768x1, .i32⟩ : BufTy).Contents (Elt F)),
    binary main_v1 main_v17 main_v18 ((fun x i => Host.gather gather_S32768_S32768x1_S32768_n_0_n_n_0_1_1 x i) : (⟨S32768, .f32⟩ : BufTy).Contents (Elt F) → (⟨S32768x1, .i32⟩ : BufTy).Contents (Elt F) → (⟨S32768, .f32⟩ : BufTy).Contents (Elt F)),
    -- the hidden-state rows in sorted order
    nullary main_c_4 (constantI S_ 32 0#32),
    unary main_c_4 main_v19 (broadcastInDim S32768 ![] bcast_S_S32768 : (⟨S_, .i32⟩ : BufTy).Contents (Elt F) → (⟨S32768, .i32⟩ : BufTy).Contents (Elt F)),
    binary main_v11 main_v19 main_v20 (cmpi .slt : (⟨S32768, .i32⟩ : BufTy).Contents (Elt F) → (⟨S32768, .i32⟩ : BufTy).Contents (Elt F) → (⟨S32768, .i1⟩ : BufTy).Contents (Elt F)),
    nullary main_c_5 (constantI S_ 32 16384#32),
    unary main_c_5 main_v21 (broadcastInDim S32768 ![] bcast_S_S32768 : (⟨S_, .i32⟩ : BufTy).Contents (Elt F) → (⟨S32768, .i32⟩ : BufTy).Contents (Elt F)),
    binary main_v11 main_v21 main_v22 (addi : (⟨S32768, .i32⟩ : BufTy).Contents (Elt F) → (⟨S32768, .i32⟩ : BufTy).Contents (Elt F) → (⟨S32768, .i32⟩ : BufTy).Contents (Elt F)),
    ternary main_v20 main_v22 main_v11 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v23 main_v24 (broadcastInDim S32768x1 ![0] bcast_S32768_S32768x1_0 : (⟨S32768, .i32⟩ : BufTy).Contents (Elt F) → (⟨S32768x1, .i32⟩ : BufTy).Contents (Elt F)),
    binary main_arg0 main_v24 main_v25 ((fun x i => Host.gather gather_S16384x512_S32768x1_S32768x512_1_0_n_n_0_1_1512 x i) : (⟨S16384x512, .f32⟩ : BufTy).Contents (Elt F) → (⟨S32768x1, .i32⟩ : BufTy).Contents (Elt F) → (⟨S32768x512, .f32⟩ : BufTy).Contents (Elt F)),
    reshape main_v25 main_v26 rfl shapeCasts_S32768x512_S64x512x512,
    -- each group through its expert
    binary main_v26 main_arg3 main_v27 ((fun l r => Host.dotGeneral dot_S64x512x512_S64x512x1024_S64x512x1024_2_1_1_2_0_0 none l r) : (⟨S64x512x512, .f32⟩ : BufTy).Contents (Elt F) → (⟨S64x512x1024, .f32⟩ : BufTy).Contents (Elt F) → (⟨S64x512x1024, .f32⟩ : BufTy).Contents (Elt F)),
    TRef.unary (.of main_v27 : TRef sig ⟨S64x512x1024, .f32⟩) main_call2.v0 Host.negf,
    TRef.unary main_call2.v0 main_call2.v1 Host.exp,
    TRef.nullary main_call2.cst (constant S_ .f32 0x3F800000#32),
    TRef.unary main_call2.cst main_call2.v2 (broadcastInDim S64x512x1024 ![] bcast_S_S64x512x1024),
    TRef.binary main_call2.v2 main_call2.v1 main_call2.v3 addf,
    TRef.nullary main_call2.cst_0 (constant S_ .f32 0x3F800000#32),
    TRef.unary main_call2.cst_0 main_call2.v4 (broadcastInDim S64x512x1024 ![] bcast_S_S64x512x1024),
    TRef.binary main_call2.v4 main_call2.v3 main_call2.v5 Host.divf,
    TRef.binary (.of main_v27 : TRef sig ⟨S64x512x1024, .f32⟩) main_call2.v5 main_call2.v6 mulf,
    binary main_v28 main_arg4 main_v29 ((fun l r => Host.dotGeneral dot_S64x512x1024_S64x1024x512_S64x512x512_2_1_1_2_0_0 none l r) : (⟨S64x512x1024, .f32⟩ : BufTy).Contents (Elt F) → (⟨S64x1024x512, .f32⟩ : BufTy).Contents (Elt F) → (⟨S64x512x512, .f32⟩ : BufTy).Contents (Elt F)),
    -- scaled by the sorted weights and scatter-added onto the tokens
    reshape main_v29 main_v30 rfl shapeCasts_S64x512x512_S32768x512,
    unary main_v18 main_v31 (broadcastInDim S32768x1 ![0] bcast_S32768_S32768x1_0 : (⟨S32768, .f32⟩ : BufTy).Contents (Elt F) → (⟨S32768x1, .f32⟩ : BufTy).Contents (Elt F)),
    unary main_v31 main_v32 (broadcastInDim S32768x512 ![0, 1] bcast_S32768x1_S32768x512_0_1 : (⟨S32768x1, .f32⟩ : BufTy).Contents (Elt F) → (⟨S32768x512, .f32⟩ : BufTy).Contents (Elt F)),
    binary main_v30 main_v32 main_v33 (mulf : (⟨S32768x512, .f32⟩ : BufTy).Contents (Elt F) → (⟨S32768x512, .f32⟩ : BufTy).Contents (Elt F) → (⟨S32768x512, .f32⟩ : BufTy).Contents (Elt F)),
    nullary main_cst (constant S_ .f32 0x00000000#32),
    unary main_cst main_v34 (broadcastInDim S16384x512 ![] bcast_S_S16384x512 : (⟨S_, .f32⟩ : BufTy).Contents (Elt F) → (⟨S16384x512, .f32⟩ : BufTy).Contents (Elt F)),
    nullary main_c_6 (constantI S_ 32 0#32),
    unary main_c_6 main_v35 (broadcastInDim S32768 ![] bcast_S_S32768 : (⟨S_, .i32⟩ : BufTy).Contents (Elt F) → (⟨S32768, .i32⟩ : BufTy).Contents (Elt F)),
    binary main_v11 main_v35 main_v36 (cmpi .slt : (⟨S32768, .i32⟩ : BufTy).Contents (Elt F) → (⟨S32768, .i32⟩ : BufTy).Contents (Elt F) → (⟨S32768, .i1⟩ : BufTy).Contents (Elt F)),
    nullary main_c_7 (constantI S_ 32 16384#32),
    unary main_c_7 main_v37 (broadcastInDim S32768 ![] bcast_S_S32768 : (⟨S_, .i32⟩ : BufTy).Contents (Elt F) → (⟨S32768, .i32⟩ : BufTy).Contents (Elt F)),
    binary main_v11 main_v37 main_v38 (addi : (⟨S32768, .i32⟩ : BufTy).Contents (Elt F) → (⟨S32768, .i32⟩ : BufTy).Contents (Elt F) → (⟨S32768, .i32⟩ : BufTy).Contents (Elt F)),
    ternary main_v36 main_v38 main_v11 main_v39 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v39 main_v40 (broadcastInDim S32768x1 ![0] bcast_S32768_S32768x1_0 : (⟨S32768, .i32⟩ : BufTy).Contents (Elt F) → (⟨S32768x1, .i32⟩ : BufTy).Contents (Elt F)),
    ternary main_v34 main_v40 main_v33 main_v41 ((fun x i u => Host.scatterAdd scatter_S16384x512_S32768x1_S32768x512_1_0_0_1 x i u) : (⟨S16384x512, .f32⟩ : BufTy).Contents (Elt F) → (⟨S32768x1, .i32⟩ : BufTy).Contents (Elt F) → (⟨S32768x512, .f32⟩ : BufTy).Contents (Elt F) → (⟨S16384x512, .f32⟩ : BufTy).Contents (Elt F)) ]

set_option maxRecDepth 8192 in
set_option maxHeartbeats 4000000 in
/-- The printed program is that line: the called functions' bodies unfold at their calls and their records at
    their fields. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., reshape_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., reshape_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

end Ops

/-! ## The result in stages, at the ideal values -/

/-- The token of each assignment: assignment q belongs to token q / 2, computed as the program computes it, the
    truncating quotient of the position by 2 lowered by one where the signs differ and the remainder is not zero. -/
def tokTable : IVec S32768 32 :=
  select
    (andi
      (cmpi .ne (signi (iotaInDim S32768 32 0)) (broadcastInDim S32768 ![] bcast_S_S32768 (signi (id (constantI S_ 32 2#32)))))
      (cmpi .ne (Host.remsi (iotaInDim S32768 32 0) (broadcastInDim S32768 ![] bcast_S_S32768 (id (constantI S_ 32 2#32))))
        (broadcastInDim S32768 ![] bcast_S_S32768 (constantI S_ 32 0#32))))
    (subi (Host.divsi (iotaInDim S32768 32 0) (broadcastInDim S32768 ![] bcast_S_S32768 (id (constantI S_ 32 2#32))))
      (broadcastInDim S32768 ![] bcast_S_S32768 (constantI S_ 32 1#32)))
    (Host.divsi (iotaInDim S32768 32 0) (broadcastInDim S32768 ![] bcast_S_S32768 (id (constantI S_ 32 2#32))))

/-- The stable argsort of the expert ids: the positions 0 … 32767 carried through the stable sort of the flattened
    ids by signed less-than. Sorted position p holds assignment order p. -/
def order (a2 : IVec S16384x2 32) : IVec S32768 32 :=
  (Host.sort2 S32768 0 comparator_i32_i32_d0 (shapeCast S32768 a2 shapeCasts_S16384x2_S32768) (iotaInDim S32768 32 0)).2

/-- The argsort as a column of gather indices, a negative entry first raised by 32768. -/
def orderCol (a2 : IVec S16384x2 32) : IVec S32768x1 32 :=
  broadcastInDim S32768x1 ![0] bcast_S32768_S32768x1_0
    (select (cmpi .slt (order a2) (broadcastInDim S32768 ![] bcast_S_S32768 (constantI S_ 32 0#32)))
      (addi (order a2) (broadcastInDim S32768 ![] bcast_S_S32768 (constantI S_ 32 32768#32)))
      (order a2))

/-- The token held by each sorted position. -/
def tokSorted (a2 : IVec S16384x2 32) : IVec S32768 32 :=
  Host.gather gather_S32768_S32768x1_S32768_n_0_n_n_0_1_1 tokTable (orderCol a2)

/-- The routing weight held by each sorted position. -/
def wSorted (a1 : FVec Ideal S16384x2 .f32) (a2 : IVec S16384x2 32) : FVec Ideal S32768 .f32 :=
  Host.gather gather_S32768_S32768x1_S32768_n_0_n_n_0_1_1 (shapeCast S32768 a1 shapeCasts_S16384x2_S32768) (orderCol a2)

/-- The sorted positions' tokens as a column of row indices, a negative entry first raised by 16384. -/
def tokCol (a2 : IVec S16384x2 32) : IVec S32768x1 32 :=
  broadcastInDim S32768x1 ![0] bcast_S32768_S32768x1_0
    (select (cmpi .slt (tokSorted a2) (broadcastInDim S32768 ![] bcast_S_S32768 (constantI S_ 32 0#32)))
      (addi (tokSorted a2) (broadcastInDim S32768 ![] bcast_S_S32768 (constantI S_ 32 16384#32)))
      (tokSorted a2))

/-- The hidden-state rows in sorted order, 512 consecutive positions to each of the 64 experts. -/
def xg (a0 : FVec Ideal S16384x512 .f32) (a2 : IVec S16384x2 32) : FVec Ideal S64x512x512 .f32 :=
  shapeCast S64x512x512 (Host.gather gather_S16384x512_S32768x1_S32768x512_1_0_n_n_0_1_1512 a0 (tokCol a2))
    shapeCasts_S32768x512_S64x512x512

/-- All 64 feed-forward networks at once, over any grouped rows x: the batched product with the first weights, silu
    of it as the program spells silu, a · (1 / (1 + e^(-a))), and the batched product with the second weights. -/
def experts (x : FVec Ideal S64x512x512 .f32) (W1 : FVec Ideal S64x512x1024 .f32) (W2 : FVec Ideal S64x1024x512 .f32) :
    FVec Ideal S64x512x512 .f32 :=
  Host.dotGeneral dot_S64x512x1024_S64x1024x512_S64x512x512_2_1_1_2_0_0 none
    (mulf (Host.dotGeneral dot_S64x512x512_S64x512x1024_S64x512x1024_2_1_1_2_0_0 none x W1)
      (Host.divf (broadcastInDim S64x512x1024 ![] bcast_S_S64x512x1024 (constant (F := Ideal) S_ .f32 0x3F800000#32))
        (addf (broadcastInDim S64x512x1024 ![] bcast_S_S64x512x1024 (constant (F := Ideal) S_ .f32 0x3F800000#32))
          (Host.exp (Host.negf (Host.dotGeneral dot_S64x512x512_S64x512x1024_S64x512x1024_2_1_1_2_0_0 none x W1))))))
    W2

/-- Each group of sorted rows through its expert. -/
def yg (a0 : FVec Ideal S16384x512 .f32) (a2 : IVec S16384x2 32) (a3 : FVec Ideal S64x512x1024 .f32)
    (a4 : FVec Ideal S64x1024x512 .f32) : FVec Ideal S64x512x512 .f32 :=
  experts (xg a0 a2) a3 a4

/-- What the program returns: from zero, row p of the experts' outputs times the sorted weight p, added onto the row
    of the token that sorted position p holds. -/
def result (a0 : FVec Ideal S16384x512 .f32) (a1 : FVec Ideal S16384x2 .f32) (a2 : IVec S16384x2 32)
    (a3 : FVec Ideal S64x512x1024 .f32) (a4 : FVec Ideal S64x1024x512 .f32) : FVec Ideal S16384x512 .f32 :=
  Host.scatterAdd scatter_S16384x512_S32768x1_S32768x512_1_0_0_1
    (broadcastInDim S16384x512 ![] bcast_S_S16384x512 (constant (F := Ideal) S_ .f32 0x00000000#32))
    (tokCol a2)
    (mulf (shapeCast S32768x512 (yg a0 a2 a3 a4) shapeCasts_S64x512x512_S32768x512)
      (broadcastInDim S32768x512 ![0, 1] bcast_S32768x1_S32768x512_0_1
        (broadcastInDim S32768x1 ![0] bcast_S32768_S32768x1_0 (wSorted a1 a2))))

/-! ## The run -/

set_option maxRecDepth 8192 in
set_option maxHeartbeats 32000000 in
/-- On every device, at the ideal values, from any memory with zero counters: every weakly fair execution of @main
    terminates with the result buffer at result of the five arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

/-- The frame alone: every weakly fair execution terminates and leaves the five arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => (h c).2) (run m ρ)

end Cert.ReferenceIdeal.RefRun

end
-- ==== Proof.RefFfn.lean ====
/-
  The reference's two batched products and its silu, read at one entry.

  The reference pushes the grouped rows x : [64, 512, 512] through all 64 experts at once: a product with
  W1 : [64, 512, 1024] batched over the expert axis, silu entry by entry, spelt a · (1 / (1 + e^(-a))), and a
  product with W2 : [64, 1024, 512] batched the same way.  At entry (e, r, h) that is expert e's feed-forward
  network applied to row r of group e:

      ∑ f, silu (∑ k, x[e, r, k] · W1[e, k, f]) · W2[e, f, h].

  Each batched product at an entry is the sum over the contracted coordinate of the products of the two members'
  entries; the constant 1 of the silu is the bit pattern 0x3F800000, which denotes the extended real 1; and
  1 / (1 + e^(-a)) is the logistic function by definition.
-/
import proofs.«172712_j63668595196398_2_alg».proof.Proof.RefRun
import proofs.«172712_j63668595196398_2_alg».proof.Proof.Moe
import Idealize.ShloMosaic.PureOps.Ideal.Laws
import Idealize.ShloMosaic.Lib.ValueIdx
import Idealize.ShloMosaic.Lib.IdealHost
import Idealize.ShloMosaic.Lib.StackMember

noncomputable section

namespace Cert.ReferenceIdeal.RefFfn

open Cert.ReferenceIdeal Cert.ReferenceIdeal.Gen Idealize.ShloMosaic Idealize.ShloMosaic.ValueIdx
open scoped BigOperators

/-- The first batched product at entry (e, r, f): row r of group e against column f of expert e's first weights. -/
theorem dot1_apply (x : FVec Ideal S64x512x512 .f32) (W1 : FVec Ideal S64x512x1024 .f32)
    (e : Fin 64) (r : Fin 512) (f : Fin 1024) :
    Host.dotGeneral dot_S64x512x512_S64x512x1024_S64x512x1024_2_1_1_2_0_0 none x W1 (ix3 e r f)
      = ∑ k : Fin 512, x (ix3 e r k) * W1 (ix3 e k f) :=
  StackMember.dotGeneral_stack_apply (G := 64) (m := 512) (n := 1024) (k := 512) _ none x W1 e r f

/-- The second batched product at entry (e, r, h): row r of group e's hidden layer against column h of expert e's
    second weights. -/
theorem dot2_apply (y : FVec Ideal S64x512x1024 .f32) (W2 : FVec Ideal S64x1024x512 .f32)
    (e : Fin 64) (r : Fin 512) (h : Fin 512) :
    Host.dotGeneral dot_S64x512x1024_S64x1024x512_S64x512x512_2_1_1_2_0_0 none y W2 (ix3 e r h)
      = ∑ f : Fin 1024, y (ix3 e r f) * W2 (ix3 e f h) :=
  StackMember.dotGeneral_stack_apply (G := 64) (m := 512) (n := 512) (k := 1024) _ none y W2 e r h

/-- The program's silu at an entry: a · (1 / (1 + e^(-a))) with both ones the pattern 0x3F800000, which is the
    extended real 1, so the second factor is the logistic function of the entry. -/
theorem silu_apply (a : FVec Ideal S64x512x1024 .f32) (i : S64x512x1024.Idx) :
    mulf a (Host.divf (broadcastInDim S64x512x1024 ![] bcast_S_S64x512x1024 (constant (F := Ideal) S_ .f32 0x3F800000#32))
        (addf (broadcastInDim S64x512x1024 ![] bcast_S_S64x512x1024 (constant (F := Ideal) S_ .f32 0x3F800000#32))
          (Host.exp (Host.negf a)))) i
      = Cert.Moe.silu (a i) := by
  show a i * Ideal.div (Ideal.ofBits .f32 0x3F800000#32) (Ideal.ofBits .f32 0x3F800000#32 + Ideal.exp (-(a i))) = _
  rw [Ideal.ofBits_one_f32]
  rfl

/-- All 64 experts at once, read at entry (e, r, h): expert e's feed-forward network on row r of group e. -/
theorem experts_apply (x : FVec Ideal S64x512x512 .f32) (W1 : FVec Ideal S64x512x1024 .f32)
    (W2 : FVec Ideal S64x1024x512 .f32) (e : Fin 64) (r : Fin 512) (h : Fin 512) :
    RefRun.experts x W1 W2 (ix3 e r h)
      = Cert.Moe.ffn (fun k => x (ix3 e r k)) (fun k f => W1 (ix3 e k f)) (fun f h' => W2 (ix3 e f h')) h := by
  unfold RefRun.experts Cert.Moe.ffn
  rw [dot2_apply]
  refine Finset.sum_congr rfl fun f _ => ?_
  rw [silu_apply, dot1_apply]

/-- The reference's grouped outputs at entry (e, r, h): expert e's network on the sorted row 512 · e + r. -/
theorem yg_apply (a0 : FVec Ideal S16384x512 .f32) (a2 : IVec S16384x2 32) (a3 : FVec Ideal S64x512x1024 .f32)
    (a4 : FVec Ideal S64x1024x512 .f32) (e : Fin 64) (r : Fin 512) (h : Fin 512) :
    RefRun.yg a0 a2 a3 a4 (ix3 e r h)
      = Cert.Moe.ffn (fun k => RefRun.xg a0 a2 (ix3 e r k)) (fun k f => a3 (ix3 e k f)) (fun f h' => a4 (ix3 e f h')) h :=
  experts_apply (RefRun.xg a0 a2) a3 a4 e r h

end Cert.ReferenceIdeal.RefFfn

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.LibScatterRows.lean ====
/-
  An accumulating `stablehlo.scatter` of ROWS into a table, read at an element.  No program is imported.

  What `x.at[idx].add(upd)` lowers to for a table `x : [A, C]`, `M` row indices passed as an `[M, 1]` array and `M`
  rows of updates `upd : [M, C]` (update window axis 1, inserted window axis 0, the one index component naming
  operand axis 0): update element `(p, c)` lands on table element `(b, h)` exactly when the index `idx[p, 0]`, read
  as a signed integer, is `b` and `c = h` — an index outside `[0, A)` lands nowhere and the row is dropped.  So, over
  the extended reals, the result's element `(b, h)` is `x[b, h]` plus the sum, over the rows `p` whose index is `b`,
  of `upd[p, h]` (`scatterAdd_rows_apply`).

  The dimension numbers are a literal record with an arbitrary proof of its conditions, so a program's own record
  with the same fields is this one by `rfl`.
-/
import Idealize.ShloMosaic.PureOps.Ideal
import Idealize.ShloMosaic.Lib.ValueIdx
import proofs.«172712_j63668595196398_2_alg».proof.Proof.LibScatterLanding

noncomputable section

namespace Cert.Moe

open Idealize.ShloMosaic Idealize.ShloMosaic.ValueIdx
open scoped BigOperators

/-- Dimension numbers of a scatter of whole rows by a column of indices: operand `[A, C]`, scatter indices `[M, 1]`,
    updates `[M, C]`. -/
abbrev rowScatter (A C M : Nat) (wf : ScatterDims.WF ⟨2, ![A, C]⟩ ⟨2, ![M, 1]⟩ ⟨2, ![M, C]⟩ [1] [0] [0] 1) :
    ScatterDims ⟨2, ![A, C]⟩ ⟨2, ![M, 1]⟩ ⟨2, ![M, C]⟩ where
  updateWindowDims := [1]
  insertedWindowDims := [0]
  scatterDimsToOperandDims := [0]
  indexVectorDim := 1
  wf := wf

section
variable {A C M w : Nat} (wf : ScatterDims.WF ⟨2, ![A, C]⟩ ⟨2, ![M, 1]⟩ ⟨2, ![M, C]⟩ [1] [0] [0] 1)
  (idx : IVec ⟨2, ![M, 1]⟩ w) (p : Fin M) (c : Fin C)

/-- On the row axis the window starts at the row index, read signed … -/
theorem rowScatter_start0 : (rowScatter A C M wf).start (ix2 p c) idx 0 = (idx (ix2 p 0)).toInt := by
  unfold ScatterDims.start
  rw [dif_pos (show (0 : Fin 2) ∈ (rowScatter A C M wf).scatterDimsToOperandDims from List.mem_singleton.mpr rfl)]
  have hsi : (rowScatter A C M wf).siIdx (ix2 p c) ⟨List.idxOf (0 : Fin 2) (rowScatter A C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- … and the window has no extent there; -/
theorem rowScatter_window0 : (rowScatter A C M wf).window (ix2 p c) 0 = 0 := by
  unfold ScatterDims.window
  rw [dif_neg]
  show (0 : Fin 2) ∉ (List.finRange 2).filter (· ∉ [(0 : Fin 2)])
  decide

/-- on the column axis the window starts at `0` … -/
theorem rowScatter_start1 : (rowScatter A C M wf).start (ix2 p c) idx 1 = 0 := by
  unfold ScatterDims.start
  rw [dif_neg (show (1 : Fin 2) ∉ (rowScatter A C M wf).scatterDimsToOperandDims from
    (by decide : (1 : Fin 2) ∉ [(0 : Fin 2)]))]

/-- … and its coordinate is the update's column. -/
theorem rowScatter_window1 : (rowScatter A C M wf).window (ix2 p c) 1 = c.val := by
  unfold ScatterDims.window
  rw [dif_pos (show (1 : Fin 2) ∈ (rowScatter A C M wf).sKept from
    (by decide : (1 : Fin 2) ∈ (List.finRange 2).filter (· ∉ [(0 : Fin 2)])))]
  rfl

/-- WHERE A ROW'S ELEMENT LANDS: update `(p, c)` lands on `(b, h)` exactly when row `p`'s index, read signed, is `b`
    and the columns agree. -/
theorem rowScatter_lands (b : Fin A) (h : Fin C) :
    (rowScatter A C M wf).resultIdx? (ix2 p c) idx = some (ix2 b h)
      ↔ (idx (ix2 p 0)).toInt = (b.val : Int) ∧ c = h := by
  rw [ScatterDims.resultIdx?_eq_some_iff]
  constructor
  · intro e
    have e0 := e 0
    have e1 := e 1
    rw [rowScatter_start0, rowScatter_window0] at e0
    rw [rowScatter_start1, rowScatter_window1] at e1
    refine ⟨?_, Fin.ext ?_⟩
    · have : ((ix2 b h : (⟨2, ![A, C]⟩ : Shape).Idx) 0).val = b.val := rfl
      rw [this] at e0
      omega
    · have : ((ix2 b h : (⟨2, ![A, C]⟩ : Shape).Idx) 1).val = h.val := rfl
      rw [this] at e1
      omega
  · rintro ⟨e0, rfl⟩ a
    match a with
    | ⟨0, _⟩ =>
      show (rowScatter A C M wf).start (ix2 p c) idx 0 + ((rowScatter A C M wf).window (ix2 p c) 0 : Int) = (b.val : Int)
      rw [rowScatter_start0, rowScatter_window0, e0]
      omega
    | ⟨1, _⟩ =>
      show (rowScatter A C M wf).start (ix2 p c) idx 1 + ((rowScatter A C M wf).window (ix2 p c) 1 : Int) = (c.val : Int)
      rw [rowScatter_start1, rowScatter_window1]
      omega

end

/-- THE ROW SCATTER-ADD READ AT `(b, h)`: the table's element plus the sum of column `h` of the update rows whose
    index, read signed, is `b`. -/
theorem scatterAdd_rows_apply {A C M w : Nat} (wf : ScatterDims.WF ⟨2, ![A, C]⟩ ⟨2, ![M, 1]⟩ ⟨2, ![M, C]⟩ [1] [0] [0] 1)
    (x : (⟨2, ![A, C]⟩ : Shape).Idx → EReal) (idx : IVec ⟨2, ![M, 1]⟩ w) (upd : (⟨2, ![M, C]⟩ : Shape).Idx → EReal)
    (b : Fin A) (h : Fin C) :
    Ideal.hostScatterAdd (rowScatter A C M wf) x idx upd (ix2 b h)
      = x (ix2 b h) + ∑ p ∈ Finset.univ.filter (fun p : Fin M => (idx (ix2 p 0)).toInt = (b.val : Int)), upd (ix2 p h) := by
  unfold Ideal.hostScatterAdd
  refine congrArg (x (ix2 b h) + ·) ?_
  rw [Finset.sum_filter, sum_idx2, Finset.sum_filter]
  refine Finset.sum_congr rfl fun p _ => ?_
  by_cases hp : (idx (ix2 p 0)).toInt = (b.val : Int)
  · rw [if_pos hp]
    rw [Finset.sum_eq_single h]
    · rw [if_pos ((rowScatter_lands wf idx p h b h).mpr ⟨hp, rfl⟩)]
    · intro c _ hc
      rw [if_neg fun e => hc ((rowScatter_lands wf idx p c b h).mp e).2]
    · intro hh
      exact absurd (Finset.mem_univ h) hh
  · rw [if_neg hp]
    refine Finset.sum_eq_zero fun c _ => ?_
    rw [if_neg fun e => hp ((rowScatter_lands wf idx p c b h).mp e).1]

end Cert.Moe

end
-- ==== Proof.RefValue.lean ====
/-
  The idealized reference program's result, index by index, is the layer's output `Cert.Moe.out`.

  With `σ` the sorting permutation of the flattened expert ids: sorted position `p` holds assignment `σ p`, of token
  `σ p / 2`; the reference gathers that token's hidden-state row and that assignment's weight, runs expert `p / 512` on
  the row, scales, and adds the row into token `σ p / 2` of an all-zero table.  The rows added into token `b` are those
  of the sorted positions whose assignment is one of `b`'s two slots: by the re-indexing law the two terms of
  `Cert.Moe.out`.
-/
import proofs.«172712_j63668595196398_2_alg».proof.Proof.RefRun
import proofs.«172712_j63668595196398_2_alg».proof.Proof.RefFfn
import proofs.«172712_j63668595196398_2_alg».proof.Proof.MoeIndex
import proofs.«172712_j63668595196398_2_alg».proof.Proof.LibScatterRows

set_option maxRecDepth 16384

noncomputable section

namespace Cert.ReferenceIdeal.RefValue

open Cert.ReferenceIdeal Cert.ReferenceIdeal.Gen Cert.ReferenceIdeal.RefRun Idealize.ShloMosaic Idealize.ShloMosaic.ValueIdx

/-- The expert ids, one per assignment. -/
def flatIds (a2 : IVec S16384x2 32) : IVec S32768 32 := shapeCast S32768 a2 shapeCasts_S16384x2_S32768

/-- The sorting permutation of the flattened expert ids: sorted position `p` holds assignment `σ p`. -/
def σ (a2 : IVec S16384x2 32) : Equiv.Perm (Fin 32768) := Cert.Moe.perm (flatIds a2)

/-- Assignment `i` belongs to token `i / 2`. -/
theorem tokTable_apply (i : Fin 32768) : tokTable (ix1 i) = BitVec.ofNat 32 (i.val / 2) :=
  Cert.Moe.tokTable_apply bcast_S_S32768 i

/-- The column of row indices at sorted position `p` is the word of the token of assignment `σ p`. -/
theorem tokCol_apply (a2 : IVec S16384x2 32) (p : Fin 32768) :
    tokCol a2 (ix2 p 0) = BitVec.ofNat 32 (Cert.Moe.tokOf (σ a2 p)).val :=
  Cert.Moe.sorted_token_col gather_S32768_S32768x1_S32768_n_0_n_n_0_1_1_wf bcast_S_S32768 bcast_S32768_S32768x1_0
    tokTable tokTable_apply (flatIds a2) p

/-- The weight at sorted position `p` is the routing weight of assignment `σ p`. -/
theorem wSorted_apply (a1 : FVec Ideal S16384x2 .f32) (a2 : IVec S16384x2 32) (p : Fin 32768) :
    wSorted a1 a2 (ix1 p) = a1 (ix2 (Cert.Moe.tokOf (σ a2 p)) (Cert.Moe.slotOf (σ a2 p))) :=
  (Cert.Moe.sorted_weight gather_S32768_S32768x1_S32768_n_0_n_n_0_1_1_wf bcast_S_S32768 bcast_S32768_S32768x1_0
    (shapeCast S32768 a1 shapeCasts_S16384x2_S32768) (flatIds a2) p).trans
    (Cert.Moe.flat_apply a1 shapeCasts_S16384x2_S32768 (σ a2 p))

/-- Row `r` of expert `e`'s block of the gathered rows is the hidden-state row of the token of assignment
    `σ (512 e + r)`. -/
theorem xg_apply (a0 : FVec Ideal S16384x512 .f32) (a2 : IVec S16384x2 32) (e : Fin 64) (r k : Fin 512) :
    xg a0 a2 (ix3 e r k) = a0 (ix2 (Cert.Moe.tokOf (σ a2 (Cert.Moe.posOf e r))) k) := by
  unfold xg
  rw [Cert.Moe.rows_to_blocks]
  exact Cert.Moe.sorted_row gather_S32768_S32768x1_S32768_n_0_n_n_0_1_1_wf
    gather_S16384x512_S32768x1_S32768x512_1_0_n_n_0_1_1512_wf bcast_S_S32768 bcast_S32768_S32768x1_0 tokTable tokTable_apply
    a0 (flatIds a2) (Cert.Moe.posOf e r) k

/-- The reference's result at token `b`, column `h`, is the layer's output there. -/
theorem result_apply (a0 : FVec Ideal S16384x512 .f32) (a1 : FVec Ideal S16384x2 .f32) (a2 : IVec S16384x2 32)
    (a3 : FVec Ideal S64x512x1024 .f32) (a4 : FVec Ideal S64x1024x512 .f32) (b : Fin 16384) (h : Fin 512) :
    result a0 a1 a2 a3 a4 (ix2 b h)
      = Cert.Moe.out (Ideal.ofBits .f32 0x00000000#32) a0 a1 a3 a4 (σ a2) b h := by
  unfold result
  show Ideal.hostScatterAdd (Cert.Moe.rowScatter 16384 512 32768 scatter_S16384x512_S32768x1_S32768x512_1_0_0_1_wf)
    _ (tokCol a2) _ (ix2 b h) = _
  rw [Cert.Moe.scatterAdd_rows_apply]
  have hfilter : (Finset.univ.filter fun p : Fin 32768 => (tokCol a2 (ix2 p 0)).toInt = (b.val : Int))
      = Finset.univ.filter fun p : Fin 32768 => (σ a2 p).val / 2 = b.val := by
    refine Finset.filter_congr fun p _ => ?_
    rw [tokCol_apply, Cert.Moe.idxWord_toInt _ (by have := (Cert.Moe.tokOf (σ a2 p)).isLt; omega)]
    show ((((σ a2 p).val / 2 : Nat) : Int) = (b.val : Int)) ↔ _
    omega
  rw [hfilter, Cert.Moe.sum_positions_of_token]
  unfold Cert.Moe.out
  refine congrArg₂ (· + ·) rfl (Finset.sum_congr rfl fun k _ => ?_)
  show (shapeCast S32768x512 (yg a0 a2 a3 a4) shapeCasts_S64x512x512_S32768x512 : FVec Ideal S32768x512 .f32)
        (ix2 ((σ a2).symm (Cert.Moe.asg b k)) h)
      * broadcastInDim S32768x512 ![0, 1] bcast_S32768x1_S32768x512_0_1
          (broadcastInDim S32768x1 ![0] bcast_S32768_S32768x1_0 (wSorted a1 a2)) (ix2 ((σ a2).symm (Cert.Moe.asg b k)) h) = _
  rw [Cert.Moe.spread_apply, Cert.Moe.column_apply, Cert.Moe.blocks_to_rows, wSorted_apply, Equiv.apply_symm_apply,
    Cert.Moe.tokOf_asg, Cert.Moe.slotOf_asg, RefFfn.yg_apply]
  refine congrArg (· * _) ?_
  unfold Cert.Moe.Y
  refine congrArg (fun x => Cert.Moe.ffn x _ _ h) (funext fun k' => ?_)
  rw [xg_apply, Cert.Moe.posOf_expertOf_rowOf]

end Cert.ReferenceIdeal.RefValue

end
-- ==== Proof.lean ====
/-
  The certificate of a mixture-of-experts layer: a Pallas kernel program against its jnp reference.

  16384 tokens choose 2 of 64 experts each.  Both programs sort the 32768 (token, slot) assignments by expert id, give
  sorted position `p` to expert `p / 512`, and run that expert's feed-forward network `silu (x · W1) · W2` on the
  hidden-state row of the position's token.  The kernel program does the feed-forward networks in a grid of 64 points,
  one expert's block of 512 rows per point, then un-sorts the rows with the inverse sorting permutation, scales each by
  its routing weight and adds the two slots of each token.  The reference computes all blocks with two batched
  products, scales each sorted row by its sorted weight and scatter-adds it into its token's row of a zero table.

  At the ideal instance a float is an extended real and every operation is exact, so:
  • the kernel's block products into a zero accumulator and the reference's batched products are the same finite sums,
    and `tpu.logistic a` is `1 / (1 + e^(-a))`, the expression the reference spells: both rows are `Cert.Moe.ffn`;
  • the sorting table holds the words of a permutation `σ` of the assignments and the sorting table of the sorting table
    holds those of `σ⁻¹`; every gathered index is in range, so no wrap or clamp changes it;
  • the rows the reference adds into token `b` are those of the sorted positions `p` with `σ p / 2 = b`, that is of
    `σ⁻¹ (2 b)` and `σ⁻¹ (2 b + 1)`: the two rows the kernel program fetches (`Cert.Moe.sum_positions_of_token`).
  Both results are `Cert.Moe.out`, index by index.  The only law used is re-indexing a finite sum, which the commutative monoid of extended reals allows with
  no finiteness, so the precondition is never opened.  The ideal pass rewrote nothing, so `preserves` is `True`.
-/
import proofs.«172712_j63668595196398_2_alg».proof.Defs
import proofs.«172712_j63668595196398_2_alg».proof.Proof.Gen.Kernel
import proofs.«172712_j63668595196398_2_alg».proof.Proof.Gen.Kernel.Frame
import proofs.«172712_j63668595196398_2_alg».proof.Proof.Gen.KernelIdeal
import proofs.«172712_j63668595196398_2_alg».proof.Proof.Gen.KernelIdeal.Frame
import proofs.«172712_j63668595196398_2_alg».proof.Proof.Gen.ReferenceIdeal
import proofs.«172712_j63668595196398_2_alg».proof.Proof.Gen.Pre_finite_inputs
import proofs.«172712_j63668595196398_2_alg».proof.Proof.KernelValue
import proofs.«172712_j63668595196398_2_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ => Cert.ReferenceIdeal.RefRun.frame m ρ

/-- Both idealized programs, from memories agreeing on the arguments, end with the layer's output. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  funext i
  obtain ⟨b, h, rfl⟩ : ∃ (b : Fin 16384) (h : Fin 512), i = ix2 b h := ⟨i 0, i 1, eq_ix2 i⟩
  rw [Cert.ReferenceIdeal.RefValue.result_apply, Cert.KernelIdeal.KernelValue.result_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
